-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S1024x128 .f32) (main_arg1 : FVec F S1x1x1024x1024 .f32) (main_arg2 : FVec F S128x128 .f32) (main_arg3 : FVec F S128 .f32) (main_arg4 : FVec F S128x128 .f32) (main_arg5 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1x1x1024x1024 .f32 := Host.absf main_arg1
  let main_cst_0 : FVec F S_ .f32 := constant S_ .f32 0x7F800000#32
  let main_v5 : FVec F S1x1x1024x1024 .f32 := broadcastInDim S1x1x1024x1024 ![] bcast_S_S1x1x1024x1024 main_cst_0
  let main_v6 : IVec S1x1x1024x1024 1 := cmpf .olt main_v4 main_v5
  let main_c_1 : IVec S_ 1 := constantI S_ 1 1#1
  let main_v7 : IVec S_ 1 := (fun x v => Host.reduce IntOp.andi x v reducesTo_S1x1x1024x1024_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S1024x1024 : Shape := ⟨2, ![1024, 1024]⟩
abbrev S1x128 : Shape := ⟨2, ![1, 128]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S1024x128, .f32⟩
  | .hbm, ⟨1, _⟩ => ⟨S1x1x1024x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1024x1024, .f32⟩
  | .hbm, ⟨7, _⟩ => ⟨S1x128, .f32⟩
  | .hbm, ⟨8, _⟩ => ⟨S1x128, .f32⟩
  | .hbm, ⟨9, _⟩ => ⟨S1024x128, .f32⟩
  | .local _ .vmem, ⟨0, _⟩ => ⟨S1024x128, .f32⟩
  | .local _ .vmem, ⟨1, _⟩ => ⟨S1024x1024, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1024x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

class Facts₀ : Prop where
  shapeCasts_S1x1x1024x1024_S1024x1024 : S1x1x1024x1024.ShapeCasts S1024x1024
  shapeCasts_S128_S1x128 : S128.ShapeCasts S1x128
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  broadcasts_S1024x1_S1024x128 : S1024x1.Broadcasts S1024x128
  bitsLt_bf16_f32 : FTy.bits .bf16 < FTy.bits .f32
  dot_S1024x1024_S1024x1_S1024x1_0_0_1_1_n_n_wf : DotDims.WF S1024x1024 S1024x1 S1024x1 [0] [0] [1] [1] [] []
  dot_S1024x128_S128x128_S1024x128_1_1_0_0_n_n_wf : DotDims.WF S1024x128 S128x128 S1024x128 [1] [1] [0] [0] [] []
  dot_S1024x1024_S1024x128_S1024x128_0_0_1_1_n_n_wf : DotDims.WF S1024x1024 S1024x128 S1024x128 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole

variable [Facts₀]

def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x128_S128x128_S1024x128_1_1_0_0_n_n : DotDims S1024x128 S128x128 S1024x128 where
  lhsContracting := [1]
  rhsContracting := [1]
  lhsNonContracting := [0]
  rhsNonContracting := [0]
  lhsBatch := []
  rhsBatch := []
  wf := dot_S1024x128_S128x128_S1024x128_1_1_0_0_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v2) false false (stage0_5 0) (sem0_5 0) (Memref.isWhole_whole _) (hstage0_5 0)

abbrev win0_6 : Pipeline.Window sig grid0 :=
  Pipeline.Window.whole (Memref.whole main_v3) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x128 : Shape := ⟨2, ![1024, 128]⟩
abbrev S1x1x1024x1024 : Shape := ⟨4, ![1, 1, 1024, 1024]⟩
abbrev S128x128 : Shape := ⟨2, ![128, 128]⟩
abbrev S128 : Shape := ⟨1, ![128]⟩
abbrev S1x128 : Shape := ⟨2, ![1, 128]⟩
abbrev S_ : Shape := ⟨0, ![]⟩
abbrev S1x1024x1024 : Shape := ⟨3, ![1, 1024, 1024]⟩
abbrev S1024x1024 : Shape := ⟨2, ![1024, 1024]⟩
abbrev S1048576 : Shape := ⟨1, ![1048576]⟩
abbrev S1x1048576 : Shape := ⟨2, ![1, 1048576]⟩
abbrev S2x1048576 : Shape := ⟨2, ![2, 1048576]⟩
abbrev S1024 : Shape := ⟨1, ![1024]⟩
abbrev S1049600 : Shape := ⟨1, ![1049600]⟩
abbrev S1049600x1 : Shape := ⟨2, ![1049600, 1]⟩
abbrev S1049600x128 : Shape := ⟨2, ![1049600, 128]⟩

abbrev nBuf : Space → Nat
  | .hbm => 144
  | .vmem => 0
  | .smem => 0
  | _ => 0

abbrev hbmTy0_0 (i : Nat) : BufTy := match i % 128 with
  | 0 => ⟨S1024x128, .f32⟩
  | 1 => ⟨S1x1x1024x1024, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S1024x128, .f32⟩
  | 8 => ⟨S1x128, .f32⟩
  | 9 => ⟨S1024x128, .f32⟩
  | 10 => ⟨S1024x128, .f32⟩
  | 11 => ⟨S_, .f32⟩
  | 12 => ⟨S1024x128, .f32⟩
  | 13 => ⟨S1024x128, .f32⟩
  | 14 => ⟨S1x1024x1024, .f32⟩
  | 15 => ⟨S1024x1024, .f32⟩
  | 16 => ⟨S1048576, .i32⟩
  | 17 => ⟨S_, .i32⟩
  | 18 => ⟨S_, .i32⟩
  | 19 => ⟨S1048576, .i32⟩
  | 20 => ⟨S1048576, .i32⟩
  | 21 => ⟨S1048576, .i32⟩
  | 22 => ⟨S_, .i32⟩
  | 23 => ⟨S1048576, .i32⟩
  | 24 => ⟨S1048576, .i1⟩
  | 25 => ⟨S1048576, .i32⟩
  | 26 => ⟨S1048576, .i32⟩
  | 27 => ⟨S_, .i32⟩
  | 28 => ⟨S1048576, .i32⟩
  | 29 => ⟨S1048576, .i1⟩
  | 30 => ⟨S1048576, .i1⟩
  | 31 => ⟨S_, .i32⟩
  | 32 => ⟨S1048576, .i32⟩
  | 33 => ⟨S1048576, .i32⟩
  | 34 => ⟨S1048576, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i1⟩
  | 49 => ⟨S_, .i32⟩
  | 50 => ⟨S_, .i1⟩
  | 51 => ⟨S1048576, .i1⟩
  | 52 => ⟨S1048576, .i1⟩
  | 53 => ⟨S1048576, .i1⟩
  | 54 => ⟨S1048576, .i32⟩
  | 55 => ⟨S1048576, .i32⟩
  | 56 => ⟨S1048576, .i32⟩
  | 57 => ⟨S1x1048576, .i32⟩
  | 58 => ⟨S1x1048576, .i32⟩
  | 59 => ⟨S2x1048576, .i32⟩
  | 60 => ⟨S1048576, .f32⟩
  | 61 => ⟨S_, .f32⟩
  | 62 => ⟨S1048576, .f32⟩
  | 63 => ⟨S1048576, .i1⟩
  | 64 => ⟨S1048576, .f32⟩
  | 65 => ⟨S1x1048576, .i32⟩
  | 66 => ⟨S1048576, .i32⟩
  | 67 => ⟨S1x1048576, .i32⟩
  | 68 => ⟨S1048576, .i32⟩
  | 69 => ⟨S1024, .i32⟩
  | 70 => ⟨S1049600, .i32⟩
  | 71 => ⟨S1049600, .i32⟩
  | 72 => ⟨S_, .f32⟩
  | 73 => ⟨S1024, .f32⟩
  | 74 => ⟨S1049600, .f32⟩
  | 75 => ⟨S_, .f32⟩
  | 76 => ⟨S1024, .f32⟩
  | 77 => ⟨S_, .i32⟩
  | 78 => ⟨S1049600, .i32⟩
  | 79 => ⟨S1049600, .i1⟩
  | 80 => ⟨S_, .i32⟩
  | 81 => ⟨S1049600, .i32⟩
  | 82 => ⟨S1049600, .i32⟩
  | 83 => ⟨S1049600, .i32⟩
  | 84 => ⟨S1049600x1, .i32⟩
  | 85 => ⟨S1024, .f32⟩
  | 86 => ⟨S_, .f32⟩
  | 87 => ⟨S1024, .f32⟩
  | 88 => ⟨S1024, .i1⟩
  | 89 => ⟨S_, .f32⟩
  | 90 => ⟨S1024, .f32⟩
  | 91 => ⟨S1024, .f32⟩
  | 92 => ⟨S_, .f32⟩
  | 93 => ⟨S_, .f32⟩
  | 94 => ⟨S1024, .f32⟩
  | 95 => ⟨S1024, .f32⟩
  | 96 => ⟨S_, .i32⟩
  | 97 => ⟨S1049600, .i32⟩
  | 98 => ⟨S1049600, .i1⟩
  | 99 => ⟨S_, .i32⟩
  | 100 => ⟨S1049600, .i32⟩
  | 101 => ⟨S1049600, .i32⟩
  | 102 => ⟨S1049600, .i32⟩
  | 103 => ⟨S1049600x1, .i32⟩
  | 104 => ⟨S1049600, .f32⟩
  | 105 => ⟨S_, .i32⟩
  | 106 => ⟨S1049600, .i32⟩
  | 107 => ⟨S1049600, .i1⟩
  | 108 => ⟨S_, .i32⟩
  | 109 => ⟨S1049600, .i32⟩
  | 110 => ⟨S1049600, .i32⟩
  | 111 => ⟨S1049600, .i32⟩
  | 112 => ⟨S1049600x1, .i32⟩
  | 113 => ⟨S1049600, .f32⟩
  | 114 => ⟨S1049600, .f32⟩
  | 115 => ⟨S1049600, .f32⟩
  | 116 => ⟨S128x128, .f32⟩
  | 117 => ⟨S1024x128, .f32⟩
  | 118 => ⟨S1049600x1, .f32⟩
  | 119 => ⟨S_, .i32⟩
  | 120 => ⟨S1049600, .i32⟩
  | 121 => ⟨S1049600, .i1⟩
  | 122 => ⟨S_, .i32⟩
  | 123 => ⟨S1049600, .i32⟩
  | 124 => ⟨S1049600, .i32⟩
  | 125 => ⟨S1049600, .i32⟩
  | 126 => ⟨S1049600x1, .i32⟩
  | 127 => ⟨S1049600x128, .f32⟩
  | _ => ⟨S1024x128, .f32⟩

abbrev hbmTy0_1 (i : Nat) : BufTy := match i % 128 with
  | 0 => ⟨S1049600x128, .f32⟩
  | 1 => ⟨S1049600x128, .f32⟩
  | 2 => ⟨S_, .f32⟩
  | 3 => ⟨S1024x128, .f32⟩
  | 4 => ⟨S_, .i32⟩
  | 5 => ⟨S1049600, .i32⟩
  | 6 => ⟨S1049600, .i1⟩
  | 7 => ⟨S_, .i32⟩
  | 8 => ⟨S1049600, .i32⟩
  | 9 => ⟨S1049600, .i32⟩
  | 10 => ⟨S1049600, .i32⟩
  | 11 => ⟨S1049600x1, .i32⟩
  | 12 => ⟨S1024x128, .f32⟩
  | 13 => ⟨S1x128, .f32⟩
  | 14 => ⟨S1024x128, .f32⟩
  | 15 => ⟨S1024x128, .f32⟩
  | _ => ⟨S1024x128, .f32⟩

abbrev hbmTy (i : Nat) : BufTy := match i / 128 with
  | 0 => hbmTy0_0 i
  | 1 => hbmTy0_1 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v9 : Ref sig .tc := ⟨.hbm, 34, rfl⟩
abbrev main_c_0 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_cst : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_1 : Ref sig .tc := ⟨.hbm, 72, rfl⟩
abbrev main_v25 : Ref sig .tc := ⟨.hbm, 73, rfl⟩
abbrev main_v26 : Ref sig .tc := ⟨.hbm, 74, rfl⟩
abbrev main_cst_2 : Ref sig .tc := ⟨.hbm, 75, rfl⟩
abbrev main_v27 : Ref sig .tc := ⟨.hbm, 76, rfl⟩
abbrev main_c_3 : Ref sig .tc := ⟨.hbm, 77, rfl⟩
abbrev main_v28 : Ref sig .tc := ⟨.hbm, 78, rfl⟩
abbrev main_v29 : Ref sig .tc := ⟨.hbm, 79, rfl⟩
abbrev main_c_4 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_5 : Ref sig .tc := ⟨.hbm, 86, rfl⟩
abbrev main_v35 : Ref sig .tc := ⟨.hbm, 87, rfl⟩
abbrev main_v36 : Ref sig .tc := ⟨.hbm, 88, rfl⟩
abbrev main_cst_6 : Ref sig .tc := ⟨.hbm, 89, rfl⟩
abbrev main_v37 : Ref sig .tc := ⟨.hbm, 90, rfl⟩
abbrev main_v38 : Ref sig .tc := ⟨.hbm, 91, rfl⟩
abbrev main_cst_7 : Ref sig .tc := ⟨.hbm, 92, rfl⟩
abbrev main_call3_v0 : Ref sig .tc := ⟨.hbm, 93, rfl⟩
abbrev main_call3_v1 : Ref sig .tc := ⟨.hbm, 94, rfl⟩
abbrev main_v39 : Ref sig .tc := ⟨.hbm, 95, rfl⟩
abbrev main_c_8 : Ref sig .tc := ⟨.hbm, 96, rfl⟩
abbrev main_v40 : Ref sig .tc := ⟨.hbm, 97, rfl⟩
abbrev main_v41 : Ref sig .tc := ⟨.hbm, 98, rfl⟩
abbrev main_c_9 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_10 : Ref sig .tc := ⟨.hbm, 105, rfl⟩
abbrev main_v47 : Ref sig .tc := ⟨.hbm, 106, rfl⟩
abbrev main_v48 : Ref sig .tc := ⟨.hbm, 107, rfl⟩
abbrev main_c_11 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_c_12 : Ref sig .tc := ⟨.hbm, 119, rfl⟩
abbrev main_v59 : Ref sig .tc := ⟨.hbm, 120, rfl⟩
abbrev main_v60 : Ref sig .tc := ⟨.hbm, 121, rfl⟩
abbrev main_c_13 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_cst_14 : Ref sig .tc := ⟨.hbm, 130, rfl⟩
abbrev main_v68 : Ref sig .tc := ⟨.hbm, 131, rfl⟩
abbrev main_c_15 : Ref sig .tc := ⟨.hbm, 132, rfl⟩
abbrev main_v69 : Ref sig .tc := ⟨.hbm, 133, rfl⟩
abbrev main_v70 : Ref sig .tc := ⟨.hbm, 134, rfl⟩
abbrev main_c_16 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  shapeCasts_S1x1x1024x1024_S1x1024x1024 : S1x1x1024x1024.ShapeCasts S1x1024x1024
  shapeCasts_S1x1024x1024_S1024x1024 : S1x1024x1024.ShapeCasts S1024x1024
  bcast_S_S1048576 : S_.BroadcastsInDim S1048576 (![] : Fin 0 → Fin S1048576.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  shapeCasts_S1024x1024_S1048576 : S1024x1024.ShapeCasts S1048576
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S1024_S1049600_d0 : Shape.Concatenates [S1048576, S1024] S1049600 0
  bcast_S_S1024 : S_.BroadcastsInDim S1024 (![] : Fin 0 → Fin S1024.rank)
  bcast_S_S1049600 : S_.BroadcastsInDim S1049600 (![] : Fin 0 → Fin S1049600.rank)
  bcast_S1049600_S1049600x1_0 : S1049600.BroadcastsInDim S1049600x1 (![0] : Fin 1 → Fin S1049600x1.rank)
  bcast_S1049600x1_S1049600x128_0_1 : S1049600x1.BroadcastsInDim S1049600x128 (![0, 1] : Fin 2 → Fin S1049600x128.rank)
  dot_S1024x128_S128x128_S1024x128_1_0_0_1_n_n_wf : DotDims.WF S1024x128 S128x128 S1024x128 [1] [0] [0] [1] [] []
  scatter_S1024_S1049600x1_S1049600_n_0_0_1_wf : ScatterDims.WF S1024 S1049600x1 S1049600 [] [0] [0] 1
  gather_S1024_S1049600x1_S1049600_n_0_n_n_0_1_1_wf : GatherDims.WF S1024 S1049600x1 S1049600 [] [0] [] [0] [] 1 ![1]
  gather_S1024x128_S1049600x1_S1049600x128_1_0_n_n_0_1_1128_wf : GatherDims.WF S1024x128 S1049600x1 S1049600x128 [1] [0] [] [0] [] 1 ![1, 128]
  scatter_S1024x128_S1049600x1_S1049600x128_1_0_0_1_wf : ScatterDims.WF S1024x128 S1049600x1 S1049600x128 [1] [0] [0] 1

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def scatter_S1024_S1049600x1_S1049600_n_0_0_1 : ScatterDims S1024 S1049600x1 S1049600 where
  updateWindowDims := []
  insertedWindowDims := [0]
  scatterDimsToOperandDims := [0]
  indexVectorDim := 1
  wf := scatter_S1024_S1049600x1_S1049600_n_0_0_1_wf
def gather_S1024_S1049600x1_S1049600_n_0_n_n_0_1_1 : GatherDims S1024 S1049600x1 S1049600 where
  offsetDims := []
  collapsedSliceDims := [0]
  operandBatchingDims := []
  startIndicesBatchingDims := []
  startIndexMap := [0]
  indexVectorDim := 1
  sliceSizes := ![1]
  wf := gather_S1024_S1049600x1_S1049600_n_0_n_n_0_1_1_wf
def gather_S1024x128_S1049600x1_S1049600x128_1_0_n_n_0_1_1128 : GatherDims S1024x128 S1049600x1 S1049600x128 where
  offsetDims := [1]
  collapsedSliceDims := [0]
  operandBatchingDims := []
  startIndicesBatchingDims := []
  startIndexMap := [0]
  indexVectorDim := 1
  sliceSizes := ![1, 128]
  wf := gather_S1024x128_S1049600x1_S1049600x128_1_0_n_n_0_1_1128_wf
def scatter_S1024x128_S1049600x1_S1049600x128_1_0_0_1 : ScatterDims S1024x128 S1049600x1 S1049600x128 where
  updateWindowDims := [1]
  insertedWindowDims := [0]
  scatterDimsToOperandDims := [0]
  indexVectorDim := 1
  wf := scatter_S1024x128_S1049600x1_S1049600x128_1_0_0_1_wf

class Facts : Prop extends Facts₀ where

variable [Facts]
-- ==== Proof.KernelArr.lean ====
/-
  The kernel's result array as one term of the argument arrays.

  The kernel is launched once (no grid) and every one of its seven windows is the whole array, so the one
  grid point's blocks ARE the arrays: the output array after the run is the body's arithmetic `k0_pay1`
  applied to the adjacency reshaped to 1024 × 1024, x, W1, b1 reshaped to a row, Wg, and bg reshaped to a row.
-/
import proofs.«154545_g88562225643607_cont_sun_c4_858_6_alg».proof.Proof.Gen.KernelIdeal.Value

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- Every window's block index at the one grid point is 0 on both axes. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The output array as the body's arithmetic of the arrays the region finds. -/
abbrev kout (c : Dev nD) : S1024x128.Idx → Elt F .f32 :=
  k0_pay1 (V m c main_v0) (V m c main_arg0) (V m c main_arg2) (V m c main_v1) (V m c main_arg4) (V m c main_v2)

/-- Window 0's block at the point is the whole of x. -/
theorem blk0 (c : Dev nD) (t : Fin cfg0.N) : (iblk m c 0 t : S1024x128.Idx → Elt F .f32) = V m c main_arg0 := by
  obtain ⟨e0, e1, -⟩ := idx_zero t
  funext j
  show V m c main_arg0 (((cfg0.win 0).blk t).view.emb j) = V m c main_arg0 j
  refine congrArg (V m c main_arg0) ?_
  funext a; apply Fin.ext
  match a with
  | ⟨0, _⟩ => show win0_0.index t (0 : Fin 2) * 1024 + 1 * (j 0).val = (j 0).val; omega
  | ⟨1, _⟩ => show win0_0.index t (1 : Fin 2) * 128 + 1 * (j 1).val = (j 1).val; omega

/-- Window 1's block is the whole adjacency matrix. -/
theorem blk1 (c : Dev nD) (t : Fin cfg0.N) : (iblk m c 1 t : S1024x1024.Idx → Elt F .f32) = V m c main_v0 := by
  obtain ⟨-, -, e0, e1, -⟩ := idx_zero t
  funext j
  show V m c main_v0 (((cfg0.win 1).blk t).view.emb j) = V m c main_v0 j
  refine congrArg (V m c main_v0) ?_
  funext a; apply Fin.ext
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- Window 2's block is the whole of W1. -/
theorem blk2 (c : Dev nD) (t : Fin cfg0.N) : (iblk m c 2 t : S128x128.Idx → Elt F .f32) = V m c main_arg2 := by
  obtain ⟨-, -, -, -, e0, e1, -⟩ := idx_zero t
  funext j
  show V m c main_arg2 (((cfg0.win 2).blk t).view.emb j) = V m c main_arg2 j
  refine congrArg (V m c main_arg2) ?_
  funext a; apply Fin.ext
  match a with
  | ⟨0, _⟩ => show win0_2.index t (0 : Fin 2) * 128 + 1 * (j 0).val = (j 0).val; omega
  | ⟨1, _⟩ => show win0_2.index t (1 : Fin 2) * 128 + 1 * (j 1).val = (j 1).val; omega

/-- Window 3's block is the whole row b1. -/
theorem blk3 (c : Dev nD) (t : Fin cfg0.N) : (iblk m c 3 t : S1x128.Idx → Elt F .f32) = V m c main_v1 := by
  obtain ⟨-, -, -, -, -, -, e0, e1, -⟩ := idx_zero t
  funext j
  show V m c main_v1 (((cfg0.win 3).blk t).view.emb j) = V m c main_v1 j
  refine congrArg (V m c main_v1) ?_
  funext a; apply Fin.ext
  match a with
  | ⟨0, _⟩ => show win0_3.index t (0 : Fin 2) * 1 + 1 * (j 0).val = (j 0).val; omega
  | ⟨1, _⟩ => show win0_3.index t (1 : Fin 2) * 128 + 1 * (j 1).val = (j 1).val; omega

/-- Window 4's block is the whole of Wg. -/
theorem blk4 (c : Dev nD) (t : Fin cfg0.N) : (iblk m c 4 t : S128x128.Idx → Elt F .f32) = V m c main_arg4 := by
  obtain ⟨-, -, -, -, -, -, -, -, e0, e1, -⟩ := idx_zero t
  funext j
  show V m c main_arg4 (((cfg0.win 4).blk t).view.emb j) = V m c main_arg4 j
  refine congrArg (V m c main_arg4) ?_
  funext a; apply Fin.ext
  match a with
  | ⟨0, _⟩ => show win0_4.index t (0 : Fin 2) * 128 + 1 * (j 0).val = (j 0).val; omega
  | ⟨1, _⟩ => show win0_4.index t (1 : Fin 2) * 128 + 1 * (j 1).val = (j 1).val; omega

/-- Window 5's block is the whole row bg. -/
theorem blk5 (c : Dev nD) (t : Fin cfg0.N) : (iblk m c 5 t : S1x128.Idx → Elt F .f32) = V m c main_v2 := by
  obtain ⟨-, -, -, -, -, -, -, -, -, -, e0, e1, -⟩ := idx_zero t
  funext j
  show V m c main_v2 (((cfg0.win 5).blk t).view.emb j) = V m c main_v2 j
  refine congrArg (V m c main_v2) ?_
  funext a; apply Fin.ext
  match a with
  | ⟨0, _⟩ => show win0_5.index t (0 : Fin 2) * 1 + 1 * (j 0).val = (j 0).val; omega
  | ⟨1, _⟩ => show win0_5.index t (1 : Fin 2) * 128 + 1 * (j 1).val = (j 1).val; omega

/-- What the one point writes back is the (whole) block of `kout`. -/
theorem flushed6_eq (c : Dev nD) (t : Fin cfg0.N) :
    (dats m 0 c).flushed 6 t = ((cfg0.win 6).blk t).view.read (Elt F) (kout m c) := by
  show (cfg0.win 6).cut (grid0.coords t) ((dats m 0 c).after 6 t) = _
  rw [after0_6]
  unfold out0_6
  rw [View.canon_unit_zero hz]
  simp only [View.ld_unit_zero (S := S1024x128) hz, View.ld_unit_zero (S := S1024x1024) hz,
    View.ld_unit_zero (S := S128x128) hz, View.ld_unit_zero (S := S1x128) hz]
  obtain ⟨-, -, -, -, -, -, -, -, -, -, -, -, e0, e1⟩ := idx_zero t
  funext j
  show k0_pay1 (iblk m c 1 t) (iblk m c 0 t) (iblk m c 2 t) (iblk m c 3 t) (iblk m c 4 t) (iblk m c 5 t) j
    = kout m c (((cfg0.win 6).blk t).view.emb j)
  have hj : ((cfg0.win 6).blk t).view.emb j = j := by
    funext a; apply Fin.ext
    match a with
    | ⟨0, _⟩ => show win0_6.index t (0 : Fin 2) * 1024 + 1 * (j 0).val = (j 0).val; omega
    | ⟨1, _⟩ => show win0_6.index t (1 : Fin 2) * 128 + 1 * (j 1).val = (j 1).val; omega
  rw [hj]
  show k0_pay1 (iblk m c 1 t : S1024x1024.Idx → Elt F .f32) (iblk m c 0 t : S1024x128.Idx → Elt F .f32)
      (iblk m c 2 t : S128x128.Idx → Elt F .f32) (iblk m c 3 t : S1x128.Idx → Elt F .f32)
      (iblk m c 4 t : S128x128.Idx → Elt F .f32) (iblk m c 5 t : S1x128.Idx → Elt F .f32) j = _
  rw [blk0, blk1, blk2, blk3, blk4, blk5]

/-- An index is in the point's block iff each coordinate is in the block's range. -/
theorem mem_blk6 (t : Fin cfg0.N) (i : S1024x128.Idx) :
    i ∈ ((cfg0.win 6).blk t).view.set ↔ ∀ a : Fin 2, win0_6.index t a * S1024x128.size a ≤ (i a).val ∧ (i a).val < win0_6.index t a * S1024x128.size a + S1024x128.size a := by
  show i ∈ ((View.whole main_v3).slice (win0_6.rect t)).set ↔ _
  rw [View.set_slice_whole, Rect.mem_set_unit]
  exact Iff.rfl

/-- The one block covers the whole array. -/
theorem cover6 (i : S1024x128.Idx) : ∃ t : Fin cfg0.N, (cfg0.win 6).flush t = true ∧ i ∈ ((cfg0.win 6).blk t).view.set := by
  have hN : 0 < cfg0.N := by rw [show cfg0.N = grid0.N from rfl, N_0]; exact Nat.one_pos
  refine ⟨⟨0, hN⟩, flush0_6 _, ?_⟩
  rw [mem_blk6]
  obtain ⟨-, -, -, -, -, -, -, -, -, -, -, -, e0, e1⟩ := idx_zero ⟨0, hN⟩
  have h0 : (i 0).val < 1024 := (i 0).isLt
  have h1 : (i 1).val < 128 := (i 1).isLt
  intro a
  match a with
  | ⟨0, _⟩ => show win0_6.index ⟨0, hN⟩ (0 : Fin 2) * 1024 ≤ (i 0).val ∧ (i 0).val < win0_6.index ⟨0, hN⟩ (0 : Fin 2) * 1024 + 1024; omega
  | ⟨1, _⟩ => show win0_6.index ⟨0, hN⟩ (1 : Fin 2) * 128 ≤ (i 1).val ∧ (i 1).val < win0_6.index ⟨0, hN⟩ (1 : Fin 2) * 128 + 128; omega

/-- The output array after the run. -/
theorem final6 (c : Dev nD) : (dats m 0 c).arrAt 6 cfg0.N = kout m c :=
  (dats m 0 c).arrAt_eq_of_cover 6 _ (fun t _ => flushed6_eq m c t) (fun i => cover6 i)

/-- The adjacency as the region finds it: the argument reshaped to a matrix. -/
theorem V_adj (c : Dev nD) : (V m c main_v0 : S1024x1024.Idx → Elt F .f32)
    = shapeCast S1024x1024 (m ((c : Thread nD τ).loc main_arg1)) Facts₀.shapeCasts_S1x1x1024x1024_S1024x1024 := by
  dsimp only [Gen.V, Gen.hostOps0]; after_results; rfl

/-- b1 as the region finds it: a row. -/
theorem V_b1 (c : Dev nD) : (V m c main_v1 : S1x128.Idx → Elt F .f32)
    = shapeCast S1x128 (m ((c : Thread nD τ).loc main_arg3)) Facts₀.shapeCasts_S128_S1x128 := by
  dsimp only [Gen.V, Gen.hostOps0]; after_results; rfl

/-- bg as the region finds it: a row. -/
theorem V_bg (c : Dev nD) : (V m c main_v2 : S1x128.Idx → Elt F .f32)
    = shapeCast S1x128 (m ((c : Thread nD τ).loc main_arg5)) Facts₀.shapeCasts_S128_S1x128 := by
  dsimp only [Gen.V, Gen.hostOps0]; after_results; rfl

/-- The body's arithmetic of the six argument arrays. -/
def kres (x : FVec F S1024x128 .f32) (adj : FVec F S1x1x1024x1024 .f32) (W1 : FVec F S128x128 .f32) (b1 : FVec F S128 .f32)
    (Wg : FVec F S128x128 .f32) (bg : FVec F S128 .f32) : FVec F S1024x128 .f32 :=
  k0_pay1 (shapeCast S1024x1024 adj Facts₀.shapeCasts_S1x1x1024x1024_S1024x1024) x W1
    (shapeCast S1x128 b1 Facts₀.shapeCasts_S128_S1x128) Wg (shapeCast S1x128 bg Facts₀.shapeCasts_S128_S1x128)

theorem kout_eq (c : Dev nD) : kout m c = kres (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  unfold kout kres
  rw [V_adj, V_b1, V_bg, V_main_arg0, V_main_arg2, V_main_arg4]

/-- The kernel's run: the result array is `kres` of the arguments, which end unchanged. -/
theorem run : θ_run defs (onTc (τ := τ) (main (F := F))) ⟨m, fun _ => 0, ρ⟩ fun r => ∀ c : Dev nD,
      r.2.mem ((c : Thread nD τ).loc main_v3) = kres (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final6 m c).trans (kout_eq m c)), (h c).2⟩)
    (Cert.KernelIdeal.Value.run_blocks m ρ)

end Cert.KernelIdeal.KValue

end
-- ==== Proof.RefRunOps.lean ====
/-
  The reference program as one straight line of host operations.

  Its own ninety-odd statements, with the five helper functions it calls (the rectifier, the floor division, the
  remainder and the two selections) laid out at their call sites over the buffers each call names: 138 operations,
  every one on buffers of the device.
-/
import proofs.«154545_g88562225643607_cont_sun_c4_858_6_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 138 operations in order, the helper functions' operations at their call sites. -/
abbrev ops : List (HloOp τ sig (Elt F)) :=
  [ StableHlo.unary main_arg2 main_v0 ((transpose S128x128 [1, 0] · transposes_S128x128_S128x128_1_0) : (⟨S128x128, .f32⟩ : BufTy).Contents (Elt F) → (⟨S128x128, .f32⟩ : BufTy).Contents (Elt F)),
    StableHlo.binary main_arg0 main_v0 main_v1 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S1024x128 ![0, 1] bcast_S1x128_S1024x128_0_1 : (⟨S1x128, .f32⟩ : BufTy).Contents (Elt F) → (⟨S1024x128, .f32⟩ : BufTy).Contents (Elt F)),
    StableHlo.binary main_v1 main_v3 main_v4 (addf : (⟨S1024x128, .f32⟩ : BufTy).Contents (Elt F) → (⟨S1024x128, .f32⟩ : BufTy).Contents (Elt F) → (⟨S1024x128, .f32⟩ : BufTy).Contents (Elt F)),
    StableHlo.TRef.nullary main_call0.cst (constant S_ .f32 0x00000000#32),
    StableHlo.TRef.unary main_call0.cst main_call0.v0 (broadcastInDim S1024x128 ![] bcast_S_S1024x128),
    StableHlo.TRef.binary (TRef.of main_v4 : TRef sig ⟨S1024x128, .f32⟩) main_call0.v0 main_call0.v1 maximumf,
    StableHlo.reshape main_arg1 main_v6 rfl shapeCasts_S1x1x1024x1024_S1x1024x1024,
    StableHlo.reshape main_v6 main_v7 rfl shapeCasts_S1x1024x1024_S1024x1024,
    StableHlo.nullary main_v8 (iotaInDim S1048576 32 0),
    StableHlo.nullary main_c (constantI S_ 32 1024#32),
    StableHlo.TRef.unary (TRef.of main_c : TRef sig ⟨S_, .i32⟩) main_call1.v0 id,
    StableHlo.TRef.unary main_call1.v0 main_call1.v1 (broadcastInDim S1048576 ![] bcast_S_S1048576),
    StableHlo.TRef.binary (TRef.of main_v8 : TRef sig ⟨S1048576, .i32⟩) main_call1.v1 main_call1.v2 Host.divsi,
    StableHlo.TRef.unary (TRef.of main_v8 : TRef sig ⟨S1048576, .i32⟩) main_call1.v3 signi,
    StableHlo.TRef.unary main_call1.v0 main_call1.v4 signi,
    StableHlo.TRef.unary main_call1.v4 main_call1.v5 (broadcastInDim S1048576 ![] bcast_S_S1048576),
    StableHlo.TRef.binary main_call1.v3 main_call1.v5 main_call1.v6 (cmpi .ne),
    StableHlo.TRef.unary main_call1.v0 main_call1.v7 (broadcastInDim S1048576 ![] bcast_S_S1048576),
    StableHlo.TRef.binary (TRef.of main_v8 : TRef sig ⟨S1048576, .i32⟩) main_call1.v7 main_call1.v8 Host.remsi,
    StableHlo.TRef.nullary main_call1.c (constantI S_ 32 0#32),
    StableHlo.TRef.unary main_call1.c main_call1.v9 (broadcastInDim S1048576 ![] bcast_S_S1048576),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S1048576 ![] bcast_S_S1048576),
    StableHlo.TRef.binary main_call1.v2 main_call1.v12 main_call1.v13 subi,
    StableHlo.TRef.ternary main_call1.v11 main_call1.v13 main_call1.v2 main_call1.call0.v0 select,
    StableHlo.nullary main_c_0 (constantI S_ 32 1024#32),
    StableHlo.TRef.unary (TRef.of main_c_0 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S1048576 ![] bcast_S_S1048576),
    StableHlo.TRef.binary (TRef.of main_v8 : TRef sig ⟨S1048576, .i32⟩) main_call2.v3 main_call2.v4 Host.remsi,
    StableHlo.TRef.nullary main_call2.c_1 (constantI S_ 32 0#32),
    StableHlo.TRef.unary main_call2.c_1 main_call2.v5 (broadcastInDim S1048576 ![] bcast_S_S1048576),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S1048576 ![] bcast_S_S1048576),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S1048576 ![] bcast_S_S1048576),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S1048576 ![] bcast_S_S1048576),
    StableHlo.TRef.binary main_call2.v4 main_call2.v13 main_call2.v14 addi,
    StableHlo.TRef.ternary main_call2.v12 main_call2.v14 main_call2.v4 main_call2.v15 select,
    StableHlo.unary main_v9 main_v11 (broadcastInDim S1x1048576 ![1] bcast_S1048576_S1x1048576_1 : (⟨S1048576, .i32⟩ : BufTy).Contents (Elt F) → (⟨S1x1048576, .i32⟩ : BufTy).Contents (Elt F)),
    StableHlo.unary main_v10 main_v12 (broadcastInDim S1x1048576 ![1] bcast_S1048576_S1x1048576_1 : (⟨S1048576, .i32⟩ : BufTy).Contents (Elt F) → (⟨S1x1048576, .i32⟩ : BufTy).Contents (Elt F)),
    StableHlo.binary main_v11 main_v12 main_v13 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)),
    StableHlo.reshape main_v7 main_v14 rfl shapeCasts_S1024x1024_S1048576,
    StableHlo.nullary main_cst (constant S_ .f32 0x00000000#32),
    StableHlo.unary main_cst main_v15 (broadcastInDim S1048576 ![] bcast_S_S1048576 : (⟨S_, .f32⟩ : BufTy).Contents (Elt F) → (⟨S1048576, .f32⟩ : BufTy).Contents (Elt F)),
    StableHlo.binary main_v14 main_v15 main_v16 (cmpf .une : (⟨S1048576, .f32⟩ : BufTy).Contents (Elt F) → (⟨S1048576, .f32⟩ : BufTy).Contents (Elt F) → (⟨S1048576, .i1⟩ : BufTy).Contents (Elt F)),
    StableHlo.unary main_v16 main_v17 (uitofp .f32 : (⟨S1048576, .i1⟩ : BufTy).Contents (Elt F) → (⟨S1048576, .f32⟩ : BufTy).Contents (Elt F)),
    StableHlo.unary main_v13 main_v18 ((extractStridedSlice S1x1048576 ![0, 0] · slices_S2x1048576_S1x1048576_0_0) : (⟨S2x1048576, .i32⟩ : BufTy).Contents (Elt F) → (⟨S1x1048576, .i32⟩ : BufTy).Contents (Elt F)),
    StableHlo.reshape main_v18 main_v19 rfl shapeCasts_S1x1048576_S1048576,
    StableHlo.unary main_v13 main_v20 ((extractStridedSlice S1x1048576 ![1, 0] · slices_S2x1048576_S1x1048576_1_0) : (⟨S2x1048576, .i32⟩ : BufTy).Contents (Elt F) → (⟨S1x1048576, .i32⟩ : BufTy).Contents (Elt F)),
    StableHlo.reshape main_v20 main_v21 rfl shapeCasts_S1x1048576_S1048576,
    StableHlo.nullary main_v22 (iotaInDim S1024 32 0),
    StableHlo.binary main_v19 main_v22 main_v23 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.binary main_v21 main_v22 main_v24 ((fun a b => concatenate S1049600 0 [⟨S1048576, a⟩, ⟨S1024, b⟩] concatenates_S1048576_S1024_S1049600_d0) : (⟨S1048576, .i32⟩ : BufTy).Contents (Elt F) → (⟨S1024, .i32⟩ : BufTy).Contents (Elt F) → (⟨S1049600, .i32⟩ : BufTy).Contents (Elt F)),
    StableHlo.nullary main_cst_1 (constant S_ .f32 0x3F800000#32),
    StableHlo.unary main_cst_1 main_v25 (broadcastInDim S1024 ![] bcast_S_S1024 : (⟨S_, .f32⟩ : BufTy).Contents (Elt F) → (⟨S1024, .f32⟩ : BufTy).Contents (Elt F)),
    StableHlo.binary main_v17 main_v25 main_v26 ((fun a b => concatenate S1049600 0 [⟨S1048576, a⟩, ⟨S1024, b⟩] concatenates_S1048576_S1024_S1049600_d0) : (⟨S1048576, .f32⟩ : BufTy).Contents (Elt F) → (⟨S1024, .f32⟩ : BufTy).Contents (Elt F) → (⟨S1049600, .f32⟩ : BufTy).Contents (Elt F)),
    StableHlo.nullary main_cst_2 (constant S_ .f32 0x00000000#32),
    StableHlo.unary main_cst_2 main_v27 (broadcastInDim S1024 ![] bcast_S_S1024 : (⟨S_, .f32⟩ : BufTy).Contents (Elt F) → (⟨S1024, .f32⟩ : BufTy).Contents (Elt F)),
    StableHlo.nullary main_c_3 (constantI S_ 32 0#32),
    StableHlo.unary main_c_3 main_v28 (broadcastInDim S1049600 ![] bcast_S_S1049600 : (⟨S_, .i32⟩ : BufTy).Contents (Elt F) → (⟨S1049600, .i32⟩ : BufTy).Contents (Elt F)),
    StableHlo.binary main_v24 main_v28 main_v29 (cmpi .slt : (⟨S1049600, .i32⟩ : BufTy).Contents (Elt F) → (⟨S1049600, .i32⟩ : BufTy).Contents (Elt F) → (⟨S1049600, .i1⟩ : BufTy).Contents (Elt F)),
    StableHlo.nullary main_c_4 (constantI S_ 32 1024#32),
    StableHlo.unary main_c_4 main_v30 (broadcastInDim S1049600 ![] bcast_S_S1049600 : (⟨S_, .i32⟩ : BufTy).Contents (Elt F) → (⟨S1049600, .i32⟩ : BufTy).Contents (Elt F)),
    StableHlo.binary main_v24 main_v30 main_v31 (addi : (⟨S1049600, .i32⟩ : BufTy).Contents (Elt F) → (⟨S1049600, .i32⟩ : BufTy).Contents (Elt F) → (⟨S1049600, .i32⟩ : BufTy).Contents (Elt F)),
    StableHlo.ternary main_v29 main_v31 main_v24 main_v32 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v32 main_v33 (broadcastInDim S1049600x1 ![0] bcast_S1049600_S1049600x1_0 : (⟨S1049600, .i32⟩ : BufTy).Contents (Elt F) → (⟨S1049600x1, .i32⟩ : BufTy).Contents (Elt F)),
    StableHlo.ternary main_v27 main_v33 main_v26 main_v34 ((fun x i u => Host.scatterAdd scatter_S1024_S1049600x1_S1049600_n_0_0_1 x i u) : (⟨S1024, .f32⟩ : BufTy).Contents (Elt F) → (⟨S1049600x1, .i32⟩ : BufTy).Contents (Elt F) → (⟨S1049600, .f32⟩ : BufTy).Contents (Elt F) → (⟨S1024, .f32⟩ : BufTy).Contents (Elt F)),
    StableHlo.nullary main_cst_5 (constant S_ .f32 0x00000000#32),
    StableHlo.unary main_cst_5 main_v35 (broadcastInDim S1024 ![] bcast_S_S1024 : (⟨S_, .f32⟩ : BufTy).Contents (Elt F) → (⟨S1024, .f32⟩ : BufTy).Contents (Elt F)),
    StableHlo.binary main_v34 main_v35 main_v36 (cmpf .ogt : (⟨S1024, .f32⟩ : BufTy).Contents (Elt F) → (⟨S1024, .f32⟩ : BufTy).Contents (Elt F) → (⟨S1024, .i1⟩ : BufTy).Contents (Elt F)),
    StableHlo.nullary main_cst_6 (constant S_ .f32 0xBF000000#32),
    StableHlo.unary main_cst_6 main_v37 (broadcastInDim S1024 ![] bcast_S_S1024 : (⟨S_, .f32⟩ : BufTy).Contents (Elt F) → (⟨S1024, .f32⟩ : BufTy).Contents (Elt F)),
    StableHlo.binary main_v34 main_v37 main_v38 (Host.powf : (⟨S1024, .f32⟩ : BufTy).Contents (Elt F) → (⟨S1024, .f32⟩ : BufTy).Contents (Elt F) → (⟨S1024, .f32⟩ : BufTy).Contents (Elt F)),
    StableHlo.nullary main_cst_7 (constant S_ .f32 0x00000000#32),
    StableHlo.TRef.unary (TRef.of main_cst_7 : TRef sig ⟨S_, .f32⟩) main_call3.v0 id,
    StableHlo.TRef.unary main_call3.v0 main_call3.v1 (broadcastInDim S1024 ![] bcast_S_S1024),
    StableHlo.TRef.ternary (TRef.of main_v36 : TRef sig ⟨S1024, .i1⟩) (TRef.of main_v38 : TRef sig ⟨S1024, .f32⟩) main_call3.v1 main_call3.v2 select,
    StableHlo.nullary main_c_8 (constantI S_ 32 0#32),
    StableHlo.unary main_c_8 main_v40 (broadcastInDim S1049600 ![] bcast_S_S1049600 : (⟨S_, .i32⟩ : BufTy).Contents (Elt F) → (⟨S1049600, .i32⟩ : BufTy).Contents (Elt F)),
    StableHlo.binary main_v23 main_v40 main_v41 (cmpi .slt : (⟨S1049600, .i32⟩ : BufTy).Contents (Elt F) → (⟨S1049600, .i32⟩ : BufTy).Contents (Elt F) → (⟨S1049600, .i1⟩ : BufTy).Contents (Elt F)),
    StableHlo.nullary main_c_9 (constantI S_ 32 1024#32),
    StableHlo.unary main_c_9 main_v42 (broadcastInDim S1049600 ![] bcast_S_S1049600 : (⟨S_, .i32⟩ : BufTy).Contents (Elt F) → (⟨S1049600, .i32⟩ : BufTy).Contents (Elt F)),
    StableHlo.binary main_v23 main_v42 main_v43 (addi : (⟨S1049600, .i32⟩ : BufTy).Contents (Elt F) → (⟨S1049600, .i32⟩ : BufTy).Contents (Elt F) → (⟨S1049600, .i32⟩ : BufTy).Contents (Elt F)),
    StableHlo.ternary main_v41 main_v43 main_v23 main_v44 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v44 main_v45 (broadcastInDim S1049600x1 ![0] bcast_S1049600_S1049600x1_0 : (⟨S1049600, .i32⟩ : BufTy).Contents (Elt F) → (⟨S1049600x1, .i32⟩ : BufTy).Contents (Elt F)),
    StableHlo.binary main_v39 main_v45 main_v46 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.nullary main_c_10 (constantI S_ 32 0#32),
    StableHlo.unary main_c_10 main_v47 (broadcastInDim S1049600 ![] bcast_S_S1049600 : (⟨S_, .i32⟩ : BufTy).Contents (Elt F) → (⟨S1049600, .i32⟩ : BufTy).Contents (Elt F)),
    StableHlo.binary main_v24 main_v47 main_v48 (cmpi .slt : (⟨S1049600, .i32⟩ : BufTy).Contents (Elt F) → (⟨S1049600, .i32⟩ : BufTy).Contents (Elt F) → (⟨S1049600, .i1⟩ : BufTy).Contents (Elt F)),
    StableHlo.nullary main_c_11 (constantI S_ 32 1024#32),
    StableHlo.unary main_c_11 main_v49 (broadcastInDim S1049600 ![] bcast_S_S1049600 : (⟨S_, .i32⟩ : BufTy).Contents (Elt F) → (⟨S1049600, .i32⟩ : BufTy).Contents (Elt F)),
    StableHlo.binary main_v24 main_v49 main_v50 (addi : (⟨S1049600, .i32⟩ : BufTy).Contents (Elt F) → (⟨S1049600, .i32⟩ : BufTy).Contents (Elt F) → (⟨S1049600, .i32⟩ : BufTy).Contents (Elt F)),
    StableHlo.ternary main_v48 main_v50 main_v24 main_v51 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v51 main_v52 (broadcastInDim S1049600x1 ![0] bcast_S1049600_S1049600x1_0 : (⟨S1049600, .i32⟩ : BufTy).Contents (Elt F) → (⟨S1049600x1, .i32⟩ : BufTy).Contents (Elt F)),
    StableHlo.binary main_v39 main_v52 main_v53 ((fun x i => Host.gather gather_S1024_S1049600x1_S1049600_n_0_n_n_0_1_1 x i) : (⟨S1024, .f32⟩ : BufTy).Contents (Elt F) → (⟨S1049600x1, .i32⟩ : BufTy).Contents (Elt F) → (⟨S1049600, .f32⟩ : BufTy).Contents (Elt F)),
    StableHlo.binary main_v46 main_v53 main_v54 (mulf : (⟨S1049600, .f32⟩ : BufTy).Contents (Elt F) → (⟨S1049600, .f32⟩ : BufTy).Contents (Elt F) → (⟨S1049600, .f32⟩ : BufTy).Contents (Elt F)),
    StableHlo.binary main_v54 main_v26 main_v55 (mulf : (⟨S1049600, .f32⟩ : BufTy).Contents (Elt F) → (⟨S1049600, .f32⟩ : BufTy).Contents (Elt F) → (⟨S1049600, .f32⟩ : BufTy).Contents (Elt F)),
    StableHlo.unary main_arg4 main_v56 ((transpose S128x128 [1, 0] · transposes_S128x128_S128x128_1_0) : (⟨S128x128, .f32⟩ : BufTy).Contents (Elt F) → (⟨S128x128, .f32⟩ : BufTy).Contents (Elt F)),
    StableHlo.binary main_v5 main_v56 main_v57 ((fun l r => Host.dotGeneral dot_S1024x128_S128x128_S1024x128_1_0_0_1_n_n none l r) : (⟨S1024x128, .f32⟩ : BufTy).Contents (Elt F) → (⟨S128x128, .f32⟩ : BufTy).Contents (Elt F) → (⟨S1024x128, .f32⟩ : BufTy).Contents (Elt F)),
    StableHlo.unary main_v55 main_v58 (broadcastInDim S1049600x1 ![0] bcast_S1049600_S1049600x1_0 : (⟨S1049600, .f32⟩ : BufTy).Contents (Elt F) → (⟨S1049600x1, .f32⟩ : BufTy).Contents (Elt F)),
    StableHlo.nullary main_c_12 (constantI S_ 32 0#32),
    StableHlo.unary main_c_12 main_v59 (broadcastInDim S1049600 ![] bcast_S_S1049600 : (⟨S_, .i32⟩ : BufTy).Contents (Elt F) → (⟨S1049600, .i32⟩ : BufTy).Contents (Elt F)),
    StableHlo.binary main_v23 main_v59 main_v60 (cmpi .slt : (⟨S1049600, .i32⟩ : BufTy).Contents (Elt F) → (⟨S1049600, .i32⟩ : BufTy).Contents (Elt F) → (⟨S1049600, .i1⟩ : BufTy).Contents (Elt F)),
    StableHlo.nullary main_c_13 (constantI S_ 32 1024#32),
    StableHlo.unary main_c_13 main_v61 (broadcastInDim S1049600 ![] bcast_S_S1049600 : (⟨S_, .i32⟩ : BufTy).Contents (Elt F) → (⟨S1049600, .i32⟩ : BufTy).Contents (Elt F)),
    StableHlo.binary main_v23 main_v61 main_v62 (addi : (⟨S1049600, .i32⟩ : BufTy).Contents (Elt F) → (⟨S1049600, .i32⟩ : BufTy).Contents (Elt F) → (⟨S1049600, .i32⟩ : BufTy).Contents (Elt F)),
    StableHlo.ternary main_v60 main_v62 main_v23 main_v63 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v63 main_v64 (broadcastInDim S1049600x1 ![0] bcast_S1049600_S1049600x1_0 : (⟨S1049600, .i32⟩ : BufTy).Contents (Elt F) → (⟨S1049600x1, .i32⟩ : BufTy).Contents (Elt F)),
    StableHlo.binary main_v57 main_v64 main_v65 ((fun x i => Host.gather gather_S1024x128_S1049600x1_S1049600x128_1_0_n_n_0_1_1128 x i) : (⟨S1024x128, .f32⟩ : BufTy).Contents (Elt F) → (⟨S1049600x1, .i32⟩ : BufTy).Contents (Elt F) → (⟨S1049600x128, .f32⟩ : BufTy).Contents (Elt F)),
    StableHlo.unary main_v58 main_v66 (broadcastInDim S1049600x128 ![0, 1] bcast_S1049600x1_S1049600x128_0_1 : (⟨S1049600x1, .f32⟩ : BufTy).Contents (Elt F) → (⟨S1049600x128, .f32⟩ : BufTy).Contents (Elt F)),
    StableHlo.binary main_v66 main_v65 main_v67 (mulf : (⟨S1049600x128, .f32⟩ : BufTy).Contents (Elt F) → (⟨S1049600x128, .f32⟩ : BufTy).Contents (Elt F) → (⟨S1049600x128, .f32⟩ : BufTy).Contents (Elt F)),
    StableHlo.nullary main_cst_14 (constant S_ .f32 0x00000000#32),
    StableHlo.unary main_cst_14 main_v68 (broadcastInDim S1024x128 ![] bcast_S_S1024x128 : (⟨S_, .f32⟩ : BufTy).Contents (Elt F) → (⟨S1024x128, .f32⟩ : BufTy).Contents (Elt F)),
    StableHlo.nullary main_c_15 (constantI S_ 32 0#32),
    StableHlo.unary main_c_15 main_v69 (broadcastInDim S1049600 ![] bcast_S_S1049600 : (⟨S_, .i32⟩ : BufTy).Contents (Elt F) → (⟨S1049600, .i32⟩ : BufTy).Contents (Elt F)),
    StableHlo.binary main_v24 main_v69 main_v70 (cmpi .slt : (⟨S1049600, .i32⟩ : BufTy).Contents (Elt F) → (⟨S1049600, .i32⟩ : BufTy).Contents (Elt F) → (⟨S1049600, .i1⟩ : BufTy).Contents (Elt F)),
    StableHlo.nullary main_c_16 (constantI S_ 32 1024#32),
    StableHlo.unary main_c_16 main_v71 (broadcastInDim S1049600 ![] bcast_S_S1049600 : (⟨S_, .i32⟩ : BufTy).Contents (Elt F) → (⟨S1049600, .i32⟩ : BufTy).Contents (Elt F)),
    StableHlo.binary main_v24 main_v71 main_v72 (addi : (⟨S1049600, .i32⟩ : BufTy).Contents (Elt F) → (⟨S1049600, .i32⟩ : BufTy).Contents (Elt F) → (⟨S1049600, .i32⟩ : BufTy).Contents (Elt F)),
    StableHlo.ternary main_v70 main_v72 main_v24 main_v73 (select : (⟨S1049600, .i1⟩ : BufTy).Contents (Elt F) → (⟨S1049600, .i32⟩ : BufTy).Contents (Elt F) → (⟨S1049600, .i32⟩ : BufTy).Contents (Elt F) → (⟨S1049600, .i32⟩ : BufTy).Contents (Elt F)),
    StableHlo.unary main_v73 main_v74 (broadcastInDim S1049600x1 ![0] bcast_S1049600_S1049600x1_0 : (⟨S1049600, .i32⟩ : BufTy).Contents (Elt F) → (⟨S1049600x1, .i32⟩ : BufTy).Contents (Elt F)),
    StableHlo.ternary main_v68 main_v74 main_v67 main_v75 ((fun x i u => Host.scatterAdd scatter_S1024x128_S1049600x1_S1049600x128_1_0_0_1 x i u) : (⟨S1024x128, .f32⟩ : BufTy).Contents (Elt F) → (⟨S1049600x1, .i32⟩ : BufTy).Contents (Elt F) → (⟨S1049600x128, .f32⟩ : BufTy).Contents (Elt F) → (⟨S1024x128, .f32⟩ : BufTy).Contents (Elt F)),
    StableHlo.unary main_arg5 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S1024x128 ![0, 1] bcast_S1x128_S1024x128_0_1 : (⟨S1x128, .f32⟩ : BufTy).Contents (Elt F) → (⟨S1024x128, .f32⟩ : BufTy).Contents (Elt F)),
    StableHlo.binary main_v75 main_v77 main_v78 (addf : (⟨S1024x128, .f32⟩ : BufTy).Contents (Elt F) → (⟨S1024x128, .f32⟩ : BufTy).Contents (Elt F) → (⟨S1024x128, .f32⟩ : BufTy).Contents (Elt F)) ]

-- 138 binds re-associated: the rewrite under the chain recurses once per statement
set_option maxRecDepth 4096 in
set_option maxHeartbeats 4000000 in
/-- The program is that straight line: the helper functions unfolded at their calls, both sides are one chain of
    steps once the sequencing is reassociated. -/
theorem main_eq (c : Dev nD) : main (F := F) c = seq ops := by
  simp only [main, main_part0, main_part1, fn_relu.body, fn_floor_divide.body, fn_where.body, fn_remainder.body, fn_where_0.body,
    fn_where_1.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation reads and writes buffers of the device only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., reshape_bufs_sub .., reshape_bufs_sub .., nullary_bufs_sub .., nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., unary_bufs_sub .., unary_bufs_sub .., binary_bufs_sub ..,
    reshape_bufs_sub .., nullary_bufs_sub .., unary_bufs_sub .., binary_bufs_sub .., unary_bufs_sub .., unary_bufs_sub ..,
    reshape_bufs_sub .., unary_bufs_sub .., reshape_bufs_sub .., nullary_bufs_sub .., binary_bufs_sub .., binary_bufs_sub ..,
    nullary_bufs_sub .., unary_bufs_sub .., binary_bufs_sub .., nullary_bufs_sub .., unary_bufs_sub .., nullary_bufs_sub ..,
    unary_bufs_sub .., binary_bufs_sub .., nullary_bufs_sub .., unary_bufs_sub .., binary_bufs_sub .., ternary_bufs_sub ..,
    unary_bufs_sub .., ternary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., binary_bufs_sub .., unary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., unary_bufs_sub .., binary_bufs_sub ..⟩

end Cert.ReferenceIdeal.RefRun

end
-- ==== Proof.RefSpec.lean ====
/-
  The reference's result as one pure term of its six argument arrays, in named stages.

  The reference enumerates all 1024·1024 node pairs as an edge list: edge number e < 2^20 goes from node
  e / 1024 to node e mod 1024 and weighs 1 when the adjacency entry there is nonzero, else 0; after them come
  1024 self loops (edge 2^20 + k joins node k to itself with weight 1). The degree of a node is the sum of
  the weights of the edges that END there, the normalisation is deg^(-1/2) where the degree is positive,
  every edge carries (dinv at its source) · (dinv at its end) · (its weight) times the source's row of
  h · Wgᵀ, the rows are summed at the edges' ends, and the bias is added; h = max(x · W1ᵀ + b1, 0).

  Each definition below is the composition of the host operations that compute that stage, in the program's
  own order and spelling, so that the program's run reads back as `out` by unfolding alone.
-/
import proofs.«154545_g88562225643607_cont_sun_c4_858_6_alg».proof.ReferenceIdeal
import Idealize.ShloMosaic.PureOps.Ideal

noncomputable section

namespace Cert.ReferenceIdeal.RefSpec

open Cert.ReferenceIdeal Idealize.ShloMosaic
open Facts₀ Facts

variable {F : FTy → Type} [FloatOps F] [Cert.ReferenceIdeal.Facts]

/-- The scalar integer constant `k` spread over the 2^20 pair edges. -/
def splatE (k : BitVec 32) : IVec S1048576 32 := broadcastInDim S1048576 ![] bcast_S_S1048576 (constantI S_ 32 k)

/-- The scalar integer constant `k` spread over all 1049600 edges. -/
def splatA (k : BitVec 32) : IVec S1049600 32 := broadcastInDim S1049600 ![] bcast_S_S1049600 (constantI S_ 32 k)

/-- The edge numbers 0 … 2^20 − 1. -/
def edgeNo : IVec S1048576 32 := iotaInDim S1048576 32 0

/-- Floor division of the edge number by 1024, as the program spells it: the truncated quotient, less one
    where the signs differ and the remainder is not zero. -/
def srcPair : IVec S1048576 32 :=
  select
    (andi (cmpi .ne (signi edgeNo) (broadcastInDim S1048576 ![] bcast_S_S1048576 (signi (id (constantI S_ 32 1024#32)))))
          (cmpi .ne (Host.remsi edgeNo (broadcastInDim S1048576 ![] bcast_S_S1048576 (id (constantI S_ 32 1024#32)))) (splatE 0#32)))
    (subi (Host.divsi edgeNo (broadcastInDim S1048576 ![] bcast_S_S1048576 (id (constantI S_ 32 1024#32)))) (splatE 1#32))
    (Host.divsi edgeNo (broadcastInDim S1048576 ![] bcast_S_S1048576 (id (constantI S_ 32 1024#32))))

/-- The divisor the remainder uses: 1024, or 1 were it zero. -/
def modDiv : IVec S_ 32 :=
  select (cmpi .eq (id (constantI S_ 32 1024#32)) (constantI S_ 32 0#32)) (constantI S_ 32 1#32) (id (constantI S_ 32 1024#32))

/-- The edge number modulo 1024, as the program spells it: the truncated remainder, plus the divisor where
    it is nonzero and its sign differs from the divisor's. -/
def dstPair : IVec S1048576 32 :=
  select
    (andi (cmpi .ne (cmpi .slt (Host.remsi edgeNo (broadcastInDim S1048576 ![] bcast_S_S1048576 modDiv)) (splatE 0#32))
                    (broadcastInDim S1048576 ![] bcast_S_S1048576 (cmpi .slt modDiv (constantI S_ 32 0#32))))
          (cmpi .ne (Host.remsi edgeNo (broadcastInDim S1048576 ![] bcast_S_S1048576 modDiv)) (splatE 0#32)))
    (addi (Host.remsi edgeNo (broadcastInDim S1048576 ![] bcast_S_S1048576 modDiv)) (broadcastInDim S1048576 ![] bcast_S_S1048576 modDiv))
    (Host.remsi edgeNo (broadcastInDim S1048576 ![] bcast_S_S1048576 modDiv))

/-- The two rows stacked: row 0 the sources, row 1 the ends. -/
def pairs : IVec S2x1048576 32 :=
  concatenate S2x1048576 0
    [⟨S1x1048576, broadcastInDim S1x1048576 ![1] bcast_S1048576_S1x1048576_1 srcPair⟩,
     ⟨S1x1048576, broadcastInDim S1x1048576 ![1] bcast_S1048576_S1x1048576_1 dstPair⟩]
    concatenates_S1x1048576_S1x1048576_S2x1048576_d0

/-- The node numbers 0 … 1023 (the self loops). -/
def nodeNo : IVec S1024 32 := iotaInDim S1024 32 0

/-- Every edge's source: the pair edges', then the self loops'. -/
def srcAll : IVec S1049600 32 :=
  concatenate S1049600 0
    [⟨S1048576, shapeCast S1048576 (extractStridedSlice S1x1048576 ![0, 0] pairs slices_S2x1048576_S1x1048576_0_0) shapeCasts_S1x1048576_S1048576⟩,
     ⟨S1024, nodeNo⟩] concatenates_S1048576_S1024_S1049600_d0

/-- Every edge's end. -/
def dstAll : IVec S1049600 32 :=
  concatenate S1049600 0
    [⟨S1048576, shapeCast S1048576 (extractStridedSlice S1x1048576 ![1, 0] pairs slices_S2x1048576_S1x1048576_1_0) shapeCasts_S1x1048576_S1048576⟩,
     ⟨S1024, nodeNo⟩] concatenates_S1048576_S1024_S1049600_d0

/-- A node number made nonnegative (a negative one counts from the end), as a one-column index table. -/
def table (v : IVec S1049600 32) : IVec S1049600x1 32 :=
  broadcastInDim S1049600x1 ![0] bcast_S1049600_S1049600x1_0
    (select (cmpi .slt v (splatA 0#32)) (addi v (splatA 1024#32)) v)

/-- The adjacency as a 1024 × 1024 matrix. -/
def adjM (adj : FVec F S1x1x1024x1024 .f32) : FVec F S1024x1024 .f32 :=
  shapeCast S1024x1024 (shapeCast S1x1024x1024 adj shapeCasts_S1x1x1024x1024_S1x1024x1024) shapeCasts_S1x1024x1024_S1024x1024

/-- Every edge's weight: 1 where the adjacency entry is not zero, else 0; the self loops weigh 1. -/
def weight (adj : FVec F S1x1x1024x1024 .f32) : FVec F S1049600 .f32 :=
  concatenate S1049600 0
    [⟨S1048576, uitofp .f32 (cmpf .une (shapeCast S1048576 (adjM adj) shapeCasts_S1024x1024_S1048576)
        (broadcastInDim S1048576 ![] bcast_S_S1048576 (constant S_ .f32 0x00000000#32)))⟩,
     ⟨S1024, broadcastInDim S1024 ![] bcast_S_S1024 (constant S_ .f32 0x3F800000#32)⟩] concatenates_S1048576_S1024_S1049600_d0

/-- A node's degree: the weights of the edges ending there, summed. -/
def deg (adj : FVec F S1x1x1024x1024 .f32) : FVec F S1024 .f32 :=
  Host.scatterAdd scatter_S1024_S1049600x1_S1049600_n_0_0_1
    (broadcastInDim S1024 ![] bcast_S_S1024 (constant S_ .f32 0x00000000#32)) (table dstAll) (weight adj)

/-- deg^(-1/2) where the degree is positive, else 0. -/
def dinv (adj : FVec F S1x1x1024x1024 .f32) : FVec F S1024 .f32 :=
  select (cmpf .ogt (deg adj) (broadcastInDim S1024 ![] bcast_S_S1024 (constant S_ .f32 0x00000000#32)))
    (Host.powf (deg adj) (broadcastInDim S1024 ![] bcast_S_S1024 (constant S_ .f32 0xBF000000#32)))
    (broadcastInDim S1024 ![] bcast_S_S1024 (id (constant S_ .f32 0x00000000#32)))

/-- Every edge's coefficient: dinv at its source · dinv at its end · its weight. -/
def coef (adj : FVec F S1x1x1024x1024 .f32) : FVec F S1049600 .f32 :=
  mulf (mulf (Host.gather gather_S1024_S1049600x1_S1049600_n_0_n_n_0_1_1 (dinv adj) (table srcAll))
             (Host.gather gather_S1024_S1049600x1_S1049600_n_0_n_n_0_1_1 (dinv adj) (table dstAll)))
       (weight adj)

/-- The hidden layer max(x · W1ᵀ + b1, 0). -/
def hidden (x : FVec F S1024x128 .f32) (W1 : FVec F S128x128 .f32) (b1 : FVec F S128 .f32) : FVec F S1024x128 .f32 :=
  maximumf
    (addf (Host.dotGeneral dot_S1024x128_S128x128_S1024x128_1_0_0_1_n_n none x (transpose S128x128 [1, 0] W1 transposes_S128x128_S128x128_1_0))
          (broadcastInDim S1024x128 ![0, 1] bcast_S1x128_S1024x128_0_1 (broadcastInDim S1x128 ![1] bcast_S128_S1x128_1 b1)))
    (broadcastInDim S1024x128 ![] bcast_S_S1024x128 (constant S_ .f32 0x00000000#32))

/-- hidden · Wgᵀ. -/
def proj (x : FVec F S1024x128 .f32) (W1 : FVec F S128x128 .f32) (b1 : FVec F S128 .f32) (Wg : FVec F S128x128 .f32) :
    FVec F S1024x128 .f32 :=
  Host.dotGeneral dot_S1024x128_S128x128_S1024x128_1_0_0_1_n_n none (hidden x W1 b1)
    (transpose S128x128 [1, 0] Wg transposes_S128x128_S128x128_1_0)

/-- Every edge's message: its coefficient times its source's row of `proj`. -/
def message (x : FVec F S1024x128 .f32) (adj : FVec F S1x1x1024x1024 .f32) (W1 : FVec F S128x128 .f32) (b1 : FVec F S128 .f32)
    (Wg : FVec F S128x128 .f32) : FVec F S1049600x128 .f32 :=
  mulf (broadcastInDim S1049600x128 ![0, 1] bcast_S1049600x1_S1049600x128_0_1
          (broadcastInDim S1049600x1 ![0] bcast_S1049600_S1049600x1_0 (coef adj)))
       (Host.gather gather_S1024x128_S1049600x1_S1049600x128_1_0_n_n_0_1_1128 (proj x W1 b1 Wg) (table srcAll))

/-- The reference's result: the messages summed at the edges' ends, plus the bias. -/
def out (x : FVec F S1024x128 .f32) (adj : FVec F S1x1x1024x1024 .f32) (W1 : FVec F S128x128 .f32) (b1 : FVec F S128 .f32)
    (Wg : FVec F S128x128 .f32) (bg : FVec F S128 .f32) : FVec F S1024x128 .f32 :=
  addf
    (Host.scatterAdd scatter_S1024x128_S1049600x1_S1049600x128_1_0_0_1
      (broadcastInDim S1024x128 ![] bcast_S_S1024x128 (constant S_ .f32 0x00000000#32)) (table dstAll) (message x adj W1 b1 Wg))
    (broadcastInDim S1024x128 ![0, 1] bcast_S1x128_S1024x128_0_1 (broadcastInDim S1x128 ![1] bcast_S128_S1x128_1 bg))

end Cert.ReferenceIdeal.RefSpec

end
-- ==== Proof.RefRunVal.lean ====
/-
  The reference program's straight line read at its result buffer.

  The fold of the 138 operations' results, read at the result buffer, is the composition of the stages the
  specification module names.
-/
import proofs.«154545_g88562225643607_cont_sun_c4_858_6_alg».proof.Proof.RefRunOps
import proofs.«154545_g88562225643607_cont_sun_c4_858_6_alg».proof.Proof.RefSpec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A concatenation of two pieces depends on the pieces' contents only: equal pieces, equal concatenations (the
    shapes, and with them the evidence that they tile the result, stay as they are). -/
theorem concat2_congr {α : Type} {t : Shape} {a : Fin t.rank} {s₁ s₂ : Shape} {x x' : s₁.Idx → α} {y y' : s₂.Idx → α}
    (h : Shape.Concatenates [s₁, s₂] t a) (hx : x = x') (hy : y = y') :
    concatenate t a [⟨s₁, x⟩, ⟨s₂, y⟩] h = concatenate t a [⟨s₁, x'⟩, ⟨s₂, y'⟩] h := by subst hx hy; rfl

-- The gathers, the scatters, the divisions and the layout operations stay folded: the equation never looks inside
-- them, and their bodies are searches and folds over arrays of 2^20 elements that nothing may open.
attribute [local congr] concat2_congr in
attribute [local irreducible] Host.gather Host.scatterAdd Host.divsi Host.remsi Host.powf concatenate iotaInDim
  broadcastInDim extractStridedSlice transpose shapeCast in
set_option maxRecDepth 16384 in
set_option maxHeartbeats 4000000 in
/-- The fold at the result buffer is the specification's `out`: each operation's result at its own buffer is its
    function of its operands' contents and at any other buffer what was there (the pieces of a concatenation
    rewritten in place), which leaves the composition of the program's operations over the arguments' contents; the
    specification's stages unfold to the same compositions. -/
theorem out_eq (V : Valuation τ sig (Elt F)) :
    after ops V (main_v78 : DevRef τ sig)
      = Cert.ReferenceIdeal.RefSpec.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

end Cert.ReferenceIdeal.RefRun

end
-- ==== Proof.RefRunArgs.lean ====
/-
  The reference program's straight line read at its argument buffers.

  No operation writes an argument buffer, so the fold of the 138 operations' results read there is the launch
  contents: each operation's result buffer differs from the argument's, one inequality of references at a time.
-/
import proofs.«154545_g88562225643607_cont_sun_c4_858_6_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- Argument 0's buffer is written by no operation. -/
theorem arg0_eq (V : Valuation τ sig (Elt F)) :
    after ops V (main_arg0 : DevRef τ sig) = V (main_arg0 : DevRef τ sig) := by
  after_results_simp

set_option maxRecDepth 8192 in
set_option maxHeartbeats 4000000 in
/-- Argument 1's buffer is written by no operation. -/
theorem arg1_eq (V : Valuation τ sig (Elt F)) :
    after ops V (main_arg1 : DevRef τ sig) = V (main_arg1 : DevRef τ sig) := by
  after_results_simp

set_option maxRecDepth 8192 in
set_option maxHeartbeats 4000000 in
/-- Argument 2's buffer is written by no operation. -/
theorem arg2_eq (V : Valuation τ sig (Elt F)) :
    after ops V (main_arg2 : DevRef τ sig) = V (main_arg2 : DevRef τ sig) := by
  after_results_simp

set_option maxRecDepth 8192 in
set_option maxHeartbeats 4000000 in
/-- Argument 3's buffer is written by no operation. -/
theorem arg3_eq (V : Valuation τ sig (Elt F)) :
    after ops V (main_arg3 : DevRef τ sig) = V (main_arg3 : DevRef τ sig) := by
  after_results_simp

set_option maxRecDepth 8192 in
set_option maxHeartbeats 4000000 in
/-- Argument 4's buffer is written by no operation. -/
theorem arg4_eq (V : Valuation τ sig (Elt F)) :
    after ops V (main_arg4 : DevRef τ sig) = V (main_arg4 : DevRef τ sig) := by
  after_results_simp

set_option maxRecDepth 8192 in
set_option maxHeartbeats 4000000 in
/-- Argument 5's buffer is written by no operation. -/
theorem arg5_eq (V : Valuation τ sig (Elt F)) :
    after ops V (main_arg5 : DevRef τ sig) = V (main_arg5 : DevRef τ sig) := by
  after_results_simp

end Cert.ReferenceIdeal.RefRun

end
-- ==== Proof.RefRun.lean ====
/-
  The reference program's run.

  The program is one straight line of host operations (its own statements with the five helper functions it calls
  laid out at their call sites). Running the line from any memory with zero counters terminates with every buffer
  at the fold of the operations' results over the launch contents; read at the result buffer that fold is the
  composition of the stages the specification module names, and the six argument buffers keep their contents.
-/
import proofs.«154545_g88562225643607_cont_sun_c4_858_6_alg».proof.Proof.RefRunOps
import proofs.«154545_g88562225643607_cont_sun_c4_858_6_alg».proof.Proof.RefRunVal
import proofs.«154545_g88562225643607_cont_sun_c4_858_6_alg».proof.Proof.RefRunArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- On every device, for any float values, from any memory with zero counters: every weakly fair execution of the
    program terminates with the result buffer at the specification's `out` of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v78)
        = Cert.ReferenceIdeal.RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v78).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.KernelAt.lean ====
/-
  The kernel body's arithmetic, in named stages, and each stage read at an index over the extended reals.

  With W the 0/1 matrix "adjacency entry nonzero", the body computes
    deg c   = (∑ r, W r c · 1) + 1,          dinv c = rsqrt (deg c),
    hid     = max (x · W1ᵀ + b1, 0),         xw = hid · Wgᵀ,        y r f = dinv r · xw r f,
    out j f = dinv j · ((∑ r, W r j · y r f) + (∑ r, W r j · (y r f − y r f)) + y j f) + bg f.
-/
import proofs.«154545_g88562225643607_cont_sun_c4_858_6_alg».proof.Proof.Gen.KernelIdeal.Skeleton
import proofs.«154545_g88562225643607_cont_sun_c4_858_6_alg».proof.Proof.LibDotSum
import Idealize.ShloMosaic.Lib.Pipeline.Value
import Idealize.ShloMosaic.Lib.ValueLayout
import Idealize.ShloMosaic.Lib.IdealHost

noncomputable section

open scoped BigOperators

namespace Cert.KernelIdeal.KAt

open Cert.KernelIdeal Idealize.ShloMosaic Idealize.ShloMosaic.ValueIdx
open Cert.KernelIdeal.Gen (k0_pay1)
open Facts₀ Facts

section Stages
variable {F : FTy → Type} [FloatOps F] [Cert.KernelIdeal.Facts]

/-- W: 1 where the adjacency entry is not zero, else 0. -/
def wM (a : FVec F S1024x1024 .f32) : FVec F S1024x1024 .f32 :=
  sitofp .f32 (extui 32 (cmpf .one (shapeCast S1024x1024 a shapeCasts_S1024x1024_S1024x1024)
    (broadcast S1024x1024 (Scalar.ofBits .f32 0x00000000#32))) natLt_1_32)

/-- rsqrt of (column sums of W, plus one), as a column. -/
def dinvK (a : FVec F S1024x1024 .f32) : FVec F S1024x1 .f32 :=
  rsqrt (addf (matmul dot_S1024x1024_S1024x1_S1024x1_0_0_1_1_n_n none (wM a)
      (broadcast S1024x1 (Scalar.ofBits .f32 0x3F800000#32)) (constant S1024x1 .f32 0x00000000#32))
    (broadcast S1024x1 (Scalar.ofBits .f32 0x3F800000#32)))

/-- max (x · W1ᵀ + b1, 0). -/
def hidK (x : FVec F S1024x128 .f32) (W1 : FVec F S128x128 .f32) (b1r : FVec F S1x128 .f32) : FVec F S1024x128 .f32 :=
  maximumf (addf (matmul dot_S1024x128_S128x128_S1024x128_1_1_0_0_n_n (some .fp32) x W1 (constant S1024x128 .f32 0x00000000#32))
      (broadcastTo S1024x128 (shapeCast S1x128 b1r shapeCasts_S1x128_S1x128) broadcasts_S1x128_S1024x128))
    (broadcast S1024x128 (Scalar.ofBits .f32 0x00000000#32))

/-- hid · Wgᵀ. -/
def xwK (x : FVec F S1024x128 .f32) (W1 : FVec F S128x128 .f32) (b1r : FVec F S1x128 .f32) (Wg : FVec F S128x128 .f32) :
    FVec F S1024x128 .f32 :=
  matmul dot_S1024x128_S128x128_S1024x128_1_1_0_0_n_n (some .fp32) (hidK x W1 b1r) Wg (constant S1024x128 .f32 0x00000000#32)

/-- y = dinv (by rows) · xw. -/
def yK (a : FVec F S1024x1024 .f32) (x : FVec F S1024x128 .f32) (W1 : FVec F S128x128 .f32) (b1r : FVec F S1x128 .f32)
    (Wg : FVec F S128x128 .f32) : FVec F S1024x128 .f32 :=
  mulf (broadcastTo S1024x128 (dinvK a) broadcasts_S1024x1_S1024x128) (xwK x W1 b1r Wg)

/-- The body's result. -/
def staged (a : FVec F S1024x1024 .f32) (x : FVec F S1024x128 .f32) (W1 : FVec F S128x128 .f32) (b1r : FVec F S1x128 .f32)
    (Wg : FVec F S128x128 .f32) (bgr : FVec F S1x128 .f32) : FVec F S1024x128 .f32 :=
  addf
    (mulf (broadcastTo S1024x128 (dinvK a) broadcasts_S1024x1_S1024x128)
      (addf
        (addf (matmul dot_S1024x1024_S1024x128_S1024x128_0_0_1_1_n_n none (wM a) (yK a x W1 b1r Wg) (constant S1024x128 .f32 0x00000000#32))
              (matmul dot_S1024x1024_S1024x128_S1024x128_0_0_1_1_n_n none (wM a) (subf (yK a x W1 b1r Wg) (yK a x W1 b1r Wg))
                (constant S1024x128 .f32 0x00000000#32)))
        (yK a x W1 b1r Wg)))
    (broadcastTo S1024x128 (shapeCast S1x128 bgr shapeCasts_S1x128_S1x128) broadcasts_S1x128_S1024x128)

/-- The printed payload is these stages composed. -/
theorem pay_eq (v0 : FVec F S1024x1024 .f32) (v11 : FVec F S1024x128 .f32) (v12 : FVec F S128x128 .f32) (v14 : FVec F S1x128 .f32)
    (v20 : FVec F S128x128 .f32) (v33 : FVec F S1x128 .f32) :
    k0_pay1 v0 v11 v12 v14 v20 v33 = staged v0 v11 v12 v14 v20 v33 := rfl

end Stages

section AtIdeal
variable [Cert.KernelIdeal.Facts]

/-- W at (r, c): 0 where the entry is zero, else 1. -/
theorem wM_apply (a : FVec Ideal S1024x1024 .f32) (r c : Fin 1024) :
    wM a (ix2 r c) = if a (ix2 r c) = (0 : EReal) then (0 : EReal) else 1 := by
  unfold wM
  rw [shapeCast_self]
  show (((((Ideal.cmp .one (a (ix2 r c)) (Ideal.ofBits .f32 0x00000000#32)).setWidth 32).toInt : ℤ) : ℝ) : EReal) = _
  rw [Ideal.ofBits_zero_f32]
  by_cases h : a (ix2 r c) = (0 : EReal)
  · rw [if_pos h, h]
    have : Ideal.cmp .one (0 : EReal) 0 = 0#1 := by simp [Ideal.cmp]
    rw [this]; simp
  · rw [if_neg h]
    have : Ideal.cmp .one (a (ix2 r c)) 0 = 1#1 := by simp [Ideal.cmp, h]
    rw [this]; simp

/-- The literal 1.0. -/
theorem ofBits_one : Ideal.ofBits .f32 0x3F800000#32 = (1 : EReal) := Ideal.ofBits_one_f32

/-- Operand index of W in the column-sum product: at output (c, ·) and contracted coordinate k it is (k, c). -/
theorem dot1_lhs (c : Fin 1024) (z : Fin 1) (k : Fin 1024) :
    dot_S1024x1024_S1024x1_S1024x1_0_0_1_1_n_n.lhsIdx (ix2 c z)
      ((contrEquiv1 dot_S1024x1024_S1024x1_S1024x1_0_0_1_1_n_n 1024 rfl rfl).symm k) = ix2 k c := by
  funext a
  match a with
  | ⟨0, _⟩ => exact Fin.ext (LibDotSum.lhs_contr_val dot_S1024x1024_S1024x1_S1024x1_0_0_1_1_n_n 1024 rfl rfl rfl (ix2 c z) k)
  | ⟨1, _⟩ => rfl

/-- Column c of W summed (each entry times the literal one). -/
theorem colsum_apply (a : FVec Ideal S1024x1024 .f32) (c : Fin 1024) (z : Fin 1) :
    matmul dot_S1024x1024_S1024x1_S1024x1_0_0_1_1_n_n none (wM a)
        (broadcast S1024x1 (Scalar.ofBits .f32 0x3F800000#32)) (constant S1024x1 .f32 0x00000000#32) (ix2 c z)
      = ∑ r : Fin 1024, wM a (ix2 r c) * (1 : EReal) := by
  refine (Ideal.matmul_constant_zero_apply dot_S1024x1024_S1024x1_S1024x1_0_0_1_1_n_n none _ _ (ix2 c z)).trans ?_
  exact LibDotSum.sum_single dot_S1024x1024_S1024x1_S1024x1_0_0_1_1_n_n 1024 rfl rfl _ _ _ _ _
    (fun k => by rw [dot1_lhs]) (fun k => ofBits_one)

/-- dinv at row c: rsqrt of (column sum + 1). -/
theorem dinvK_apply (a : FVec Ideal S1024x1024 .f32) (c : Fin 1024) (z : Fin 1) :
    dinvK a (ix2 c z) = Ideal.rsqrt ((∑ r : Fin 1024, wM a (ix2 r c) * (1 : EReal)) + 1) := by
  unfold dinvK
  show Ideal.rsqrt (matmul dot_S1024x1024_S1024x1_S1024x1_0_0_1_1_n_n none (wM a)
        (broadcast S1024x1 (Scalar.ofBits .f32 0x3F800000#32)) (constant S1024x1 .f32 0x00000000#32) (ix2 c z)
      + Ideal.ofBits .f32 0x3F800000#32) = _
  rw [colsum_apply, ofBits_one]

/-- A column broadcast along rows: at (p, c) it is the column's entry p. -/
theorem bcast_col {α : Type} (v : S1024x1.Idx → α) (p : Fin 1024) (c : Fin 128) :
    broadcastTo S1024x128 v broadcasts_S1024x1_S1024x128 (ix2 p c) = v (ix2 p (0 : Fin 1)) := by
  refine broadcastTo_apply v broadcasts_S1024x1_S1024x128 (ix2 p c) (ix2 p (0 : Fin 1)) fun ax => ?_
  match ax with
  | ⟨0, _⟩ => rfl
  | ⟨1, _⟩ => rfl

/-- A row broadcast down the rows: at (p, c) it is the row's entry c. -/
theorem bcast_row {α : Type} (v : S1x128.Idx → α) (p : Fin 1024) (c : Fin 128) :
    broadcastTo S1024x128 (shapeCast S1x128 v shapeCasts_S1x128_S1x128) broadcasts_S1x128_S1024x128 (ix2 p c)
      = v (ix2 (0 : Fin 1) c) := by
  rw [shapeCast_self]
  exact broadcastTo_1b_ab_apply v broadcasts_S1x128_S1024x128 p c

/-- Operand indices of a product contracting both operands' axis 1 (x · Wᵀ): (i, l) and (k, l). -/
theorem dot2_lhs (i : Fin 1024) (k l : Fin 128) :
    dot_S1024x128_S128x128_S1024x128_1_1_0_0_n_n.lhsIdx (ix2 i k)
      ((contrEquiv1 dot_S1024x128_S128x128_S1024x128_1_1_0_0_n_n 128 rfl rfl).symm l) = ix2 i l := by
  funext a
  match a with
  | ⟨0, _⟩ => rfl
  | ⟨1, _⟩ => exact Fin.ext (LibDotSum.lhs_contr_val dot_S1024x128_S128x128_S1024x128_1_1_0_0_n_n 128 rfl rfl rfl (ix2 i k) l)

theorem dot2_rhs (i : Fin 1024) (k l : Fin 128) :
    dot_S1024x128_S128x128_S1024x128_1_1_0_0_n_n.rhsIdx (ix2 i k)
      ((contrEquiv1 dot_S1024x128_S128x128_S1024x128_1_1_0_0_n_n 128 rfl rfl).symm l) = ix2 k l := by
  funext a
  match a with
  | ⟨0, _⟩ => rfl
  | ⟨1, _⟩ => exact Fin.ext (LibDotSum.rhs_contr_val dot_S1024x128_S128x128_S1024x128_1_1_0_0_n_n 128 rfl rfl rfl (ix2 i k) l)

/-- A product contracting axis 1 of both operands, into zero: (A · Bᵀ)(i, k) = ∑ l, A(i, l) · B(k, l). -/
theorem dot2_apply (A : FVec Ideal S1024x128 .f32) (B : FVec Ideal S128x128 .f32) (i : Fin 1024) (k : Fin 128) :
    matmul dot_S1024x128_S128x128_S1024x128_1_1_0_0_n_n (some .fp32) A B (constant S1024x128 .f32 0x00000000#32) (ix2 i k)
      = ∑ l : Fin 128, A (ix2 i l) * B (ix2 k l) := by
  refine (Ideal.matmul_constant_zero_apply dot_S1024x128_S128x128_S1024x128_1_1_0_0_n_n (some .fp32) A B (ix2 i k)).trans ?_
  exact LibDotSum.sum_single dot_S1024x128_S128x128_S1024x128_1_1_0_0_n_n 128 rfl rfl _ _ _ _ _
    (fun l => by rw [dot2_lhs]) (fun l => by rw [dot2_rhs])

/-- The hidden layer at (i, k). -/
theorem hidK_apply (x : FVec Ideal S1024x128 .f32) (W1 : FVec Ideal S128x128 .f32) (b1r : FVec Ideal S1x128 .f32)
    (i : Fin 1024) (k : Fin 128) :
    hidK x W1 b1r (ix2 i k) = max ((∑ l : Fin 128, x (ix2 i l) * W1 (ix2 k l)) + b1r (ix2 (0 : Fin 1) k)) (0 : EReal) := by
  unfold hidK
  show max (matmul dot_S1024x128_S128x128_S1024x128_1_1_0_0_n_n (some .fp32) x W1 (constant S1024x128 .f32 0x00000000#32) (ix2 i k)
      + broadcastTo S1024x128 (shapeCast S1x128 b1r shapeCasts_S1x128_S1x128) broadcasts_S1x128_S1024x128 (ix2 i k))
    (Ideal.ofBits .f32 0x00000000#32) = _
  rw [dot2_apply, bcast_row, Ideal.ofBits_zero_f32]

/-- hid · Wgᵀ at (i, f). -/
theorem xwK_apply (x : FVec Ideal S1024x128 .f32) (W1 : FVec Ideal S128x128 .f32) (b1r : FVec Ideal S1x128 .f32)
    (Wg : FVec Ideal S128x128 .f32) (i : Fin 1024) (f : Fin 128) :
    xwK x W1 b1r Wg (ix2 i f) = ∑ k : Fin 128, hidK x W1 b1r (ix2 i k) * Wg (ix2 f k) := by
  unfold xwK
  exact dot2_apply _ _ i f

/-- y at (r, f). -/
theorem yK_apply (a : FVec Ideal S1024x1024 .f32) (x : FVec Ideal S1024x128 .f32) (W1 : FVec Ideal S128x128 .f32)
    (b1r : FVec Ideal S1x128 .f32) (Wg : FVec Ideal S128x128 .f32) (r : Fin 1024) (f : Fin 128) :
    yK a x W1 b1r Wg (ix2 r f) = dinvK a (ix2 r (0 : Fin 1)) * xwK x W1 b1r Wg (ix2 r f) := by
  unfold yK
  show broadcastTo S1024x128 (dinvK a) broadcasts_S1024x1_S1024x128 (ix2 r f) * xwK x W1 b1r Wg (ix2 r f) = _
  rw [bcast_col]

/-- Operand indices of a product contracting both operands' axis 0 (Wᵀ · Y): (r, j) and (r, f). -/
theorem dot3_lhs (j r : Fin 1024) (f : Fin 128) :
    dot_S1024x1024_S1024x128_S1024x128_0_0_1_1_n_n.lhsIdx (ix2 j f)
      ((contrEquiv1 dot_S1024x1024_S1024x128_S1024x128_0_0_1_1_n_n 1024 rfl rfl).symm r) = ix2 r j := by
  funext a
  match a with
  | ⟨0, _⟩ => exact Fin.ext (LibDotSum.lhs_contr_val dot_S1024x1024_S1024x128_S1024x128_0_0_1_1_n_n 1024 rfl rfl rfl (ix2 j f) r)
  | ⟨1, _⟩ => rfl

theorem dot3_rhs (j r : Fin 1024) (f : Fin 128) :
    dot_S1024x1024_S1024x128_S1024x128_0_0_1_1_n_n.rhsIdx (ix2 j f)
      ((contrEquiv1 dot_S1024x1024_S1024x128_S1024x128_0_0_1_1_n_n 1024 rfl rfl).symm r) = ix2 r f := by
  funext a
  match a with
  | ⟨0, _⟩ => exact Fin.ext (LibDotSum.rhs_contr_val dot_S1024x1024_S1024x128_S1024x128_0_0_1_1_n_n 1024 rfl rfl rfl (ix2 j f) r)
  | ⟨1, _⟩ => rfl

/-- (Aᵀ · B)(j, f) = ∑ r, A(r, j) · B(r, f). -/
theorem dot3_apply (A : FVec Ideal S1024x1024 .f32) (B : FVec Ideal S1024x128 .f32) (j : Fin 1024) (f : Fin 128) :
    matmul dot_S1024x1024_S1024x128_S1024x128_0_0_1_1_n_n none A B (constant S1024x128 .f32 0x00000000#32) (ix2 j f)
      = ∑ r : Fin 1024, A (ix2 r j) * B (ix2 r f) := by
  refine (Ideal.matmul_constant_zero_apply dot_S1024x1024_S1024x128_S1024x128_0_0_1_1_n_n none A B (ix2 j f)).trans ?_
  exact LibDotSum.sum_single dot_S1024x1024_S1024x128_S1024x128_0_0_1_1_n_n 1024 rfl rfl _ _ _ _ _
    (fun r => by rw [dot3_lhs]) (fun r => by rw [dot3_rhs])

/-- The body's result at (j, f). -/
theorem staged_apply (a : FVec Ideal S1024x1024 .f32) (x : FVec Ideal S1024x128 .f32) (W1 : FVec Ideal S128x128 .f32)
    (b1r : FVec Ideal S1x128 .f32) (Wg : FVec Ideal S128x128 .f32) (bgr : FVec Ideal S1x128 .f32) (j : Fin 1024) (f : Fin 128) :
    staged a x W1 b1r Wg bgr (ix2 j f)
      = dinvK a (ix2 j (0 : Fin 1))
          * (((∑ r : Fin 1024, wM a (ix2 r j) * yK a x W1 b1r Wg (ix2 r f))
              + (∑ r : Fin 1024, wM a (ix2 r j) * (yK a x W1 b1r Wg (ix2 r f) - yK a x W1 b1r Wg (ix2 r f))))
             + yK a x W1 b1r Wg (ix2 j f))
        + bgr (ix2 (0 : Fin 1) f) := by
  unfold staged
  show broadcastTo S1024x128 (dinvK a) broadcasts_S1024x1_S1024x128 (ix2 j f)
        * ((matmul dot_S1024x1024_S1024x128_S1024x128_0_0_1_1_n_n none (wM a) (yK a x W1 b1r Wg) (constant S1024x128 .f32 0x00000000#32) (ix2 j f)
            + matmul dot_S1024x1024_S1024x128_S1024x128_0_0_1_1_n_n none (wM a) (subf (yK a x W1 b1r Wg) (yK a x W1 b1r Wg))
                (constant S1024x128 .f32 0x00000000#32) (ix2 j f))
           + yK a x W1 b1r Wg (ix2 j f))
      + broadcastTo S1024x128 (shapeCast S1x128 bgr shapeCasts_S1x128_S1x128) broadcasts_S1x128_S1024x128 (ix2 j f) = _
  rw [bcast_col, bcast_row, dot3_apply, dot3_apply]
  rfl

end AtIdeal

end Cert.KernelIdeal.KAt

end
-- ==== Proof.EdgeDefs.lean ====
/-
  The edge list's vocabulary. Edge number e < 2^20 is the node pair (e / 1024, e mod 1024); edge 2^20 + k is
  the self loop at node k. `src` and `dst` read an edge's two nodes; `pairEdge` and `loopEdge` go back.
  `wt adj r c` is the weight of the pair edge (r, c): 0 where the adjacency entry is zero, else 1.
-/
import proofs.«154545_g88562225643607_cont_sun_c4_858_6_alg».proof.ReferenceIdeal
import Idealize.ShloMosaic.PureOps.Ideal
import Idealize.ShloMosaic.Lib.ValueIdx

noncomputable section

namespace Cert.ReferenceIdeal.Edge

open Idealize.ShloMosaic Idealize.ShloMosaic.ValueIdx

/-- The node an edge leaves. -/
def src (e : Fin 1049600) : Fin 1024 :=
  if h : e.val < 1048576 then ⟨e.val / 1024, by omega⟩ else ⟨e.val - 1048576, by omega⟩

/-- The node an edge ends at. -/
def dst (e : Fin 1049600) : Fin 1024 :=
  if h : e.val < 1048576 then ⟨e.val % 1024, by omega⟩ else ⟨e.val - 1048576, by omega⟩

/-- The edge from node `r` to node `c`. -/
def pairEdge (r c : Fin 1024) : Fin 1049600 := ⟨r.val * 1024 + c.val, by omega⟩

/-- The self loop at node `k`. -/
def loopEdge (k : Fin 1024) : Fin 1049600 := ⟨1048576 + k.val, by omega⟩

theorem src_pairEdge (r c : Fin 1024) : src (pairEdge r c) = r := by
  have h : r.val * 1024 + c.val < 1048576 := by omega
  unfold src pairEdge; rw [dif_pos h]; exact Fin.ext (by show (r.val * 1024 + c.val) / 1024 = r.val; omega)

theorem dst_pairEdge (r c : Fin 1024) : dst (pairEdge r c) = c := by
  have h : r.val * 1024 + c.val < 1048576 := by omega
  unfold dst pairEdge; rw [dif_pos h]; exact Fin.ext (by show (r.val * 1024 + c.val) % 1024 = c.val; omega)

theorem src_loopEdge (k : Fin 1024) : src (loopEdge k) = k := by
  have h : ¬ (1048576 + k.val < 1048576) := by omega
  unfold src loopEdge; rw [dif_neg h]; exact Fin.ext (by show 1048576 + k.val - 1048576 = k.val; omega)

theorem dst_loopEdge (k : Fin 1024) : dst (loopEdge k) = k := by
  have h : ¬ (1048576 + k.val < 1048576) := by omega
  unfold dst loopEdge; rw [dif_neg h]; exact Fin.ext (by show 1048576 + k.val - 1048576 = k.val; omega)

/-- The weight of the pair edge (r, c). -/
def wt (adj : FVec Ideal Cert.ReferenceIdeal.S1x1x1024x1024 .f32) (r c : Fin 1024) : EReal :=
  if adj (ix4 (0 : Fin 1) (0 : Fin 1) r c) = (0 : EReal) then 0 else 1

end Cert.ReferenceIdeal.Edge

end
-- ==== Proof.GcnLaw.lean ====
/-
  The algebraic law that joins the two programs.

  Both compute, for a node j and a feature, with W the 0/1 edge weights, d the normalisation and q the
  projected features (all real numbers),
      d j · (∑ r, W r j · d r · q r) + d j · d j · q j     (+ the bias).
  The kernel factors d j out of the whole sum (and carries a second sum of terms q − q, which vanish because
  the terms are real); the edge-list reference multiplies d r · d j · W r j into every edge's message and adds
  the self loop's d j · d j · 1 · q j. Distributivity holds because every quantity is a real number; the bias
  is added last on both sides and may be any extended real.
-/
import Idealize.ShloMosaic.PureOps.Ideal

open scoped BigOperators

namespace GcnLaw

/-- A finite sum of reals, read in the extended reals, is the sum of the readings. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The common value, over the reals. -/
def val {n : ℕ} (w : Fin n → Fin n → ℝ) (d : Fin n → ℝ) (q : Fin n → ℝ) (j : Fin n) : ℝ :=
  d j * (∑ r, w r j * d r * q r) + d j * d j * q j

/-- The kernel's factored form. -/
theorem kernel_form {n : ℕ} (w : Fin n → Fin n → ℝ) (d : Fin n → ℝ) (q : Fin n → ℝ) (j : Fin n) (b : EReal) :
    (d j : EReal) * (((∑ r, (w r j : EReal) * ((d r : EReal) * (q r : EReal)))
        + (∑ r, (w r j : EReal) * ((d r : EReal) * (q r : EReal) - (d r : EReal) * (q r : EReal))))
        + (d j : EReal) * (q j : EReal)) + b
      = ((val w d q j : ℝ) : EReal) + b := by
  have key : d j * (((∑ r, w r j * (d r * q r)) + (∑ r, w r j * (d r * q r - d r * q r))) + d j * q j) = val w d q j := by
    unfold val
    simp only [sub_self, mul_zero, Finset.sum_const_zero, add_zero]
    rw [mul_add, ← mul_assoc]
    congr 2
    exact Finset.sum_congr rfl fun r _ => by ring
  rw [← key]
  simp only [EReal.coe_mul, EReal.coe_sub, coe_sum, EReal.coe_add]

/-- The edge-list form. -/
theorem edge_form {n : ℕ} (w : Fin n → Fin n → ℝ) (d : Fin n → ℝ) (q : Fin n → ℝ) (j : Fin n) (b : EReal) :
    ((0 : EReal) + ((∑ r, (((d r : EReal) * (d j : EReal)) * (w r j : EReal)) * (q r : EReal))
        + (((d j : EReal) * (d j : EReal)) * 1) * (q j : EReal))) + b
      = ((val w d q j : ℝ) : EReal) + b := by
  have key : (∑ r, ((d r * d j) * w r j) * q r) + ((d j * d j) * 1) * q j = val w d q j := by
    unfold val
    rw [Finset.mul_sum, mul_one]
    congr 1
    exact Finset.sum_congr rfl fun r _ => by ring
  rw [← key, zero_add]
  simp only [EReal.coe_mul, coe_sum, EReal.coe_add, EReal.coe_one]

end GcnLaw
-- ==== Proof.RealVals.lean ====
/-
  The real numbers behind both programs.

  When x, W1, b1 and Wg hold real numbers, every intermediate quantity is real: the 0/1 weight of a node
  pair, a node's degree (column sum of the weights plus one for the self loop, hence at least 1), the
  normalisation 1/√deg, the hidden layer max(x · W1ᵀ + b1, 0) and its projection by Wgᵀ. This file names those
  reals and shows that the extended-real expressions the programs compute are their readings.
-/
import proofs.«154545_g88562225643607_cont_sun_c4_858_6_alg».proof.Proof.EdgeDefs
import proofs.«154545_g88562225643607_cont_sun_c4_858_6_alg».proof.Proof.GcnLaw
import Idealize.ShloMosaic.Lib.ValueIdx

noncomputable section

open scoped BigOperators

namespace GcnReal

open Idealize.ShloMosaic Idealize.ShloMosaic.ValueIdx Cert.ReferenceIdeal

/-- The weight of the pair (r, c) as a real: 0 where the adjacency entry is zero, else 1. -/
def wtR (adj : FVec Ideal S1x1x1024x1024 .f32) (r c : Fin 1024) : ℝ :=
  if adj (ix4 (0 : Fin 1) (0 : Fin 1) r c) = (0 : EReal) then 0 else 1

theorem wt_coe (adj : FVec Ideal S1x1x1024x1024 .f32) (r c : Fin 1024) : Edge.wt adj r c = ((wtR adj r c : ℝ) : EReal) := by
  unfold Edge.wt wtR
  split <;> simp

theorem wtR_nonneg (adj : FVec Ideal S1x1x1024x1024 .f32) (r c : Fin 1024) : 0 ≤ wtR adj r c := by
  unfold wtR; split <;> norm_num

/-- A node's degree: the weights of the pairs ending there, plus the self loop. -/
def degR (adj : FVec Ideal S1x1x1024x1024 .f32) (c : Fin 1024) : ℝ := (∑ r : Fin 1024, wtR adj r c) + 1

theorem degR_pos (adj : FVec Ideal S1x1x1024x1024 .f32) (c : Fin 1024) : 0 < degR adj c := by
  have h : 0 ≤ ∑ r : Fin 1024, wtR adj r c := Finset.sum_nonneg fun r _ => wtR_nonneg adj r c
  unfold degR; linarith

/-- The normalisation 1/√deg. -/
def dR (adj : FVec Ideal S1x1x1024x1024 .f32) (c : Fin 1024) : ℝ := (Real.sqrt (degR adj c))⁻¹

/-- The column sum as the kernel spells it (each weight times one), plus one, is the degree. -/
theorem colsum_coe (adj : FVec Ideal S1x1x1024x1024 .f32) (c : Fin 1024) :
    (∑ r : Fin 1024, Edge.wt adj r c * (1 : EReal)) + 1 = ((degR adj c : ℝ) : EReal) := by
  unfold degR
  rw [EReal.coe_add, GcnLaw.coe_sum, EReal.coe_one]
  congr 1
  exact Finset.sum_congr rfl fun r _ => by rw [wt_coe, mul_one]

/-- The degree as the reference spells it (zero plus the weights' sum plus one). -/
theorem degsum_coe (adj : FVec Ideal S1x1x1024x1024 .f32) (c : Fin 1024) :
    (0 : EReal) + ((∑ r : Fin 1024, Edge.wt adj r c) + 1) = ((degR adj c : ℝ) : EReal) := by
  unfold degR
  rw [zero_add, EReal.coe_add, GcnLaw.coe_sum, EReal.coe_one]
  congr 1
  exact Finset.sum_congr rfl fun r _ => wt_coe adj r c

/-- The reciprocal square root of a degree is real. -/
theorem rsqrt_deg (adj : FVec Ideal S1x1x1024x1024 .f32) (c : Fin 1024) :
    Ideal.rsqrt ((degR adj c : ℝ) : EReal) = ((dR adj c : ℝ) : EReal) := by
  have h := degR_pos adj c
  rw [Ideal.rsqrt_coe, if_neg (not_lt.mpr h.le), if_neg (ne_of_gt h)]
  rfl

variable (xr : (⟨2, ![1024, 128]⟩ : Shape).Idx → ℝ) (w1r : (⟨2, ![128, 128]⟩ : Shape).Idx → ℝ)
  (b1r : (⟨1, ![128]⟩ : Shape).Idx → ℝ) (wgr : (⟨2, ![128, 128]⟩ : Shape).Idx → ℝ)

/-- The hidden layer max(x · W1ᵀ + b1, 0) at (i, k). -/
def hR (i : Fin 1024) (k : Fin 128) : ℝ := max ((∑ l : Fin 128, xr (ix2 i l) * w1r (ix2 k l)) + b1r (ix1 k)) 0

/-- The projection hidden · Wgᵀ at (i, f). -/
def qR (i : Fin 1024) (f : Fin 128) : ℝ := ∑ k : Fin 128, hR xr w1r b1r i k * wgr (ix2 f k)

theorem hid_coe (i : Fin 1024) (k : Fin 128) :
    max ((∑ l : Fin 128, (xr (ix2 i l) : EReal) * (w1r (ix2 k l) : EReal)) + (b1r (ix1 k) : EReal)) (0 : EReal)
      = ((hR xr w1r b1r i k : ℝ) : EReal) := by
  unfold hR
  rw [EReal.coe_strictMono.monotone.map_max, EReal.coe_add, GcnLaw.coe_sum, EReal.coe_zero]
  simp only [EReal.coe_mul]

theorem proj_coe (i : Fin 1024) (f : Fin 128) :
    (∑ k : Fin 128, ((hR xr w1r b1r i k : ℝ) : EReal) * (wgr (ix2 f k) : EReal)) = ((qR xr w1r b1r wgr i f : ℝ) : EReal) := by
  unfold qR
  rw [GcnLaw.coe_sum]
  exact Finset.sum_congr rfl fun k _ => (EReal.coe_mul _ _).symm

end GcnReal

end
-- ==== Proof.BridgeK.lean ====
/-
  The kernel's result at (j, f) when x, W1, b1, Wg hold reals: the common value plus the bias.

  With W the 0/1 weights, d = 1/√deg and q = hidden · Wgᵀ (all real), the body's result at (j, f) is
  d j · ((∑ r, W r j · (d r · q r f)) + (∑ r, W r j · (d r · q r f − d r · q r f)) + d j · q j f) + bg f.
-/
import proofs.«154545_g88562225643607_cont_sun_c4_858_6_alg».proof.Proof.KernelArr
import proofs.«154545_g88562225643607_cont_sun_c4_858_6_alg».proof.Proof.KernelAt
import proofs.«154545_g88562225643607_cont_sun_c4_858_6_alg».proof.Proof.RealVals
import Idealize.ShloMosaic.Lib.ValueLayout

noncomputable section

open scoped BigOperators

namespace Cert.KernelIdeal.KBridge

open Cert.KernelIdeal Idealize.ShloMosaic Idealize.ShloMosaic.ValueIdx GcnReal
open Facts₀ Facts

variable [Cert.KernelIdeal.Facts]

/-- The adjacency reshaped to a matrix, at (r, c). -/
theorem adj_at (adj : FVec Ideal S1x1x1024x1024 .f32) (r c : Fin 1024) :
    shapeCast S1024x1024 adj shapeCasts_S1x1x1024x1024_S1024x1024 (ix2 r c) = adj (ix4 (0 : Fin 1) (0 : Fin 1) r c) := by
  refine shapeCast_apply adj shapeCasts_S1x1x1024x1024_S1024x1024 (ix2 r c) (ix4 (0 : Fin 1) (0 : Fin 1) r c) ?_
  rw [Shape.rowMajor_val_four, Shape.rowMajor_val_two]
  show (((0 : ℕ) * 1 + 0) * 1024 + r.val) * 1024 + c.val = r.val * 1024 + c.val
  omega

/-- W at (r, c) is the pair's weight. -/
theorem w_at (adj : FVec Ideal S1x1x1024x1024 .f32) (r c : Fin 1024) :
    KAt.wM (shapeCast S1024x1024 adj shapeCasts_S1x1x1024x1024_S1024x1024) (ix2 r c) = ((wtR adj r c : ℝ) : EReal) := by
  rw [KAt.wM_apply, adj_at, ← wt_coe]
  rfl

/-- dinv at row c is the real 1/√deg. -/
theorem dinv_at (adj : FVec Ideal S1x1x1024x1024 .f32) (c : Fin 1024) :
    KAt.dinvK (shapeCast S1024x1024 adj shapeCasts_S1x1x1024x1024_S1024x1024) (ix2 c (0 : Fin 1)) = ((dR adj c : ℝ) : EReal) := by
  rw [KAt.dinvK_apply]
  have h : (∑ r : Fin 1024, KAt.wM (shapeCast S1024x1024 adj shapeCasts_S1x1x1024x1024_S1024x1024) (ix2 r c) * (1 : EReal)) + 1
      = ((degR adj c : ℝ) : EReal) := by
    rw [← colsum_coe]
    congr 1
    exact Finset.sum_congr rfl fun r _ => by rw [w_at, wt_coe]
  rw [h, rsqrt_deg]

variable (x : FVec Ideal S1024x128 .f32) (W1 : FVec Ideal S128x128 .f32) (b1 : FVec Ideal S128 .f32) (Wg : FVec Ideal S128x128 .f32)
  (xr : S1024x128.Idx → ℝ) (w1r : S128x128.Idx → ℝ) (b1r : S128.Idx → ℝ) (wgr : S128x128.Idx → ℝ)
  (hx : ∀ i, x i = ((xr i : ℝ) : EReal)) (hW1 : ∀ i, W1 i = ((w1r i : ℝ) : EReal)) (hb1 : ∀ i, b1 i = ((b1r i : ℝ) : EReal))
  (hWg : ∀ i, Wg i = ((wgr i : ℝ) : EReal))

include hx hW1 hb1 in
/-- The hidden layer at (i, k) is real. -/
theorem hid_at (i : Fin 1024) (k : Fin 128) :
    KAt.hidK x W1 (shapeCast S1x128 b1 shapeCasts_S128_S1x128) (ix2 i k) = ((hR xr w1r b1r i k : ℝ) : EReal) := by
  rw [KAt.hidK_apply, shapeCast_a_1a_apply]
  simp only [hx, hW1, hb1]
  exact hid_coe xr w1r b1r i k

include hx hW1 hb1 hWg in
/-- The projection at (i, f) is real. -/
theorem xw_at (i : Fin 1024) (f : Fin 128) :
    KAt.xwK x W1 (shapeCast S1x128 b1 shapeCasts_S128_S1x128) Wg (ix2 i f) = ((qR xr w1r b1r wgr i f : ℝ) : EReal) := by
  rw [KAt.xwK_apply]
  simp only [hid_at x W1 b1 xr w1r b1r hx hW1 hb1, hWg]
  exact proj_coe xr w1r b1r wgr i f

include hx hW1 hb1 hWg in
/-- y at (r, f). -/
theorem y_at (adj : FVec Ideal S1x1x1024x1024 .f32) (r : Fin 1024) (f : Fin 128) :
    KAt.yK (shapeCast S1024x1024 adj shapeCasts_S1x1x1024x1024_S1024x1024) x W1 (shapeCast S1x128 b1 shapeCasts_S128_S1x128) Wg (ix2 r f)
      = ((dR adj r : ℝ) : EReal) * ((qR xr w1r b1r wgr r f : ℝ) : EReal) := by
  rw [KAt.yK_apply, dinv_at, xw_at x W1 b1 Wg xr w1r b1r wgr hx hW1 hb1 hWg]

include hx hW1 hb1 hWg in
/-- The kernel's result at (j, f): the common value plus the bias. -/
theorem kres_at (adj : FVec Ideal S1x1x1024x1024 .f32) (bg : FVec Ideal S128 .f32) (j : Fin 1024) (f : Fin 128) :
    Cert.KernelIdeal.KValue.kres (F := Ideal) x adj W1 b1 Wg bg (ix2 j f)
      = ((GcnLaw.val (wtR adj) (dR adj) (fun r => qR xr w1r b1r wgr r f) j : ℝ) : EReal) + bg (ix1 f) := by
  unfold Cert.KernelIdeal.KValue.kres
  rw [KAt.pay_eq, KAt.staged_apply]
  simp only [w_at, y_at x W1 b1 Wg xr w1r b1r wgr hx hW1 hb1 hWg, dinv_at]
  rw [shapeCast_a_1a_apply]
  exact GcnLaw.kernel_form (wtR adj) (dR adj) (fun r => qR xr w1r b1r wgr r f) j (bg (ix1 f))

end Cert.KernelIdeal.KBridge

end
-- ==== Proof.EdgeNodes.lean ====
/-
  The edge list's node tables and weights, read at an index.

  Edge number e < 2^20 leaves node e / 1024 and ends at node e mod 1024; edge 2^20 + k is the self loop at node k.
  The sources and ends are computed in signed 32-bit arithmetic: the truncated quotient and remainder by 1024 of
  the edge number, each followed by a sign fix that turns truncation into flooring. For 0 ≤ e < 2^20 the word's
  sign bit is clear, the signed operations are the unsigned ones, and neither fix fires, so the words are those of
  e / 1024 and e mod 1024. The index table adds 1024 to a negative node number; none is negative. A pair edge
  weighs 1 where the adjacency entry is not zero and 0 where it is; a self loop weighs 1.
-/
import proofs.«154545_g88562225643607_cont_sun_c4_858_6_alg».proof.Proof.RefSpec
import proofs.«154545_g88562225643607_cont_sun_c4_858_6_alg».proof.Proof.EdgeDefs
import Idealize.ShloMosaic.Lib.ValueIdx
import Idealize.ShloMosaic.Lib.Pipeline.Value
import Idealize.ShloMosaic.Lib.ValueLayout
import Idealize.ShloMosaic.Lib.IdealHost

noncomputable section

namespace Cert.ReferenceIdeal.EdgeNodes

open Cert.ReferenceIdeal Idealize.ShloMosaic Idealize.ShloMosaic.ValueIdx

/-! ## Words: the 32-bit arithmetic at a number below 2^20 -/

section Words

/-- A number below 2^20 is its own 32-bit word's value. -/
theorem toNat_word {n : Nat} (hn : n < 1048576) : (BitVec.ofNat 32 n).toNat = n := by
  rw [BitVec.toNat_ofNat]; omega

/-- Its sign bit is clear. -/
theorem msb_word {n : Nat} (hn : n < 1048576) : (BitVec.ofNat 32 n).msb = false := by
  rw [BitVec.msb_eq_false_iff_two_mul_lt, toNat_word hn]; omega

theorem msb_1024 : (1024#32).msb = false := by decide

/-- 1024 is no corner of the signed division. -/
theorem not_corner (x : BitVec 32) : ¬ IntOp.SDivCorner x 1024#32 := by
  rintro (h | ⟨_, h⟩)
  · exact absurd h (by decide)
  · exact absurd h (by decide)

/-- The signed quotient by 1024 is the natural one. -/
theorem divsi_word {n : Nat} (hn : n < 1048576) :
    IntOp.divsi .host (BitVec.ofNat 32 n) 1024#32 = BitVec.ofNat 32 (n / 1024) := by
  unfold IntOp.divsi
  rw [if_neg (not_corner _), BitVec.sdiv_eq, msb_word hn, msb_1024]
  show (BitVec.ofNat 32 n) / 1024#32 = _
  apply BitVec.eq_of_toNat_eq
  rw [BitVec.toNat_udiv, toNat_word hn, toNat_word (show n / 1024 < 1048576 by omega)]
  rfl

/-- The signed remainder by 1024 is the natural one. -/
theorem remsi_word {n : Nat} (hn : n < 1048576) :
    IntOp.remsi .host (BitVec.ofNat 32 n) 1024#32 = BitVec.ofNat 32 (n % 1024) := by
  unfold IntOp.remsi
  rw [if_neg (not_corner _), BitVec.srem_eq, msb_word hn, msb_1024]
  show (BitVec.ofNat 32 n) % 1024#32 = _
  apply BitVec.eq_of_toNat_eq
  rw [BitVec.toNat_umod, toNat_word hn, toNat_word (show n % 1024 < 1048576 by omega)]
  rfl

/-- A word below 2^20 is not negative. -/
theorem slt_zero_word {n : Nat} (hn : n < 1048576) : IntOp.cmpi .slt (BitVec.ofNat 32 n) 0#32 = 0#1 := by
  show BitVec.ofBool ((BitVec.ofNat 32 n).slt 0#32) = 0#1
  rw [BitVec.slt_zero_eq_msb, msb_word hn]; rfl

/-- A word below 2^20 is zero exactly when the number is. -/
theorem word_eq_zero_iff {n : Nat} (hn : n < 1048576) : BitVec.ofNat 32 n = 0#32 ↔ n = 0 := by
  constructor
  · intro h
    have := congrArg BitVec.toNat h
    rw [toNat_word hn] at this
    exact this
  · rintro rfl; rfl

end Words
/-! ## The floor division and the remainder, as the program spells them -/

section Spell

/-- The sign of a 32-bit word: 0, −1 or 1. -/
def sgn (x : BitVec 32) : BitVec 32 := if x = 0 then 0 else if x.msb then -1 else 1

theorem sgn_1024 : sgn 1024#32 = 1#32 := by decide

/-- A nonzero number below 2^20 has sign 1. -/
theorem sgn_word {n : Nat} (hn : n < 1048576) (h0 : n ≠ 0) : sgn (BitVec.ofNat 32 n) = 1#32 := by
  unfold sgn
  rw [if_neg (show ¬ BitVec.ofNat 32 n = 0 from fun h => h0 ((word_eq_zero_iff hn).1 h)), msb_word hn]
  rfl

theorem andi_zero (a : BitVec 1) : IntOp.andi a 0#1 = 0#1 := BitVec.and_zero
theorem zero_andi (a : BitVec 1) : IntOp.andi 0#1 a = 0#1 := BitVec.zero_and

/-- The quotient's sign fix never fires below 2^20: the floor quotient is n / 1024. -/
theorem floorDiv_word {n : Nat} (hn : n < 1048576) :
    Scalar.select
      (IntOp.andi (IntOp.cmpi .ne (sgn (BitVec.ofNat 32 n)) (sgn 1024#32))
        (IntOp.cmpi .ne (IntOp.remsi .host (BitVec.ofNat 32 n) 1024#32) 0#32))
      (IntOp.subi (IntOp.divsi .host (BitVec.ofNat 32 n) 1024#32) 1#32)
      (IntOp.divsi .host (BitVec.ofNat 32 n) 1024#32) = BitVec.ofNat 32 (n / 1024) := by
  rw [remsi_word hn, divsi_word hn]
  have hc : IntOp.andi (IntOp.cmpi .ne (sgn (BitVec.ofNat 32 n)) (sgn 1024#32))
      (IntOp.cmpi .ne (BitVec.ofNat 32 (n % 1024)) 0#32) = 0#1 := by
    by_cases h0 : n % 1024 = 0
    · rw [h0, show IntOp.cmpi .ne (BitVec.ofNat 32 0) 0#32 = 0#1 by decide]
      exact andi_zero _
    · rw [sgn_word hn (by omega), sgn_1024, show IntOp.cmpi .ne 1#32 1#32 = 0#1 by decide]
      exact zero_andi _
  rw [hc, select_zero]

/-- The remainder's sign fix never fires below 2^20: the floor remainder is n mod 1024. -/
theorem floorMod_word {n : Nat} (hn : n < 1048576) (m : BitVec 32) (hm : m = 1024#32) :
    Scalar.select
      (IntOp.andi
        (IntOp.cmpi .ne (IntOp.cmpi .slt (IntOp.remsi .host (BitVec.ofNat 32 n) m) 0#32) (IntOp.cmpi .slt m 0#32))
        (IntOp.cmpi .ne (IntOp.remsi .host (BitVec.ofNat 32 n) m) 0#32))
      (IntOp.addi (IntOp.remsi .host (BitVec.ofNat 32 n) m) m)
      (IntOp.remsi .host (BitVec.ofNat 32 n) m) = BitVec.ofNat 32 (n % 1024) := by
  subst hm
  rw [remsi_word hn, slt_zero_word (show n % 1024 < 1048576 by omega),
    show IntOp.cmpi .slt 1024#32 0#32 = 0#1 by decide, show IntOp.cmpi .ne 0#1 0#1 = 0#1 by decide, zero_andi,
    select_zero]

/-- A node number below 2^20 is not negative, so the table leaves it. -/
theorem wrap_word {n : Nat} (hn : n < 1048576) :
    Scalar.select (IntOp.cmpi .slt (BitVec.ofNat 32 n) 0#32) (IntOp.addi (BitVec.ofNat 32 n) 1024#32) (BitVec.ofNat 32 n)
      = BitVec.ofNat 32 n := by
  rw [slt_zero_word hn, select_zero]

end Spell
/-! ## The pair edges' two nodes, and the stacked rows -/

section Nodes
variable [Cert.ReferenceIdeal.Facts]

/-- The remainder's divisor is 1024. -/
theorem modDiv_apply (i : S_.Idx) : RefSpec.modDiv i = 1024#32 := by
  show Scalar.select (IntOp.cmpi .eq 1024#32 0#32) 1#32 1024#32 = 1024#32
  decide

/-- The source of pair edge e is e / 1024. -/
theorem srcPair_apply (e : Fin 1048576) : RefSpec.srcPair (ix1 e) = BitVec.ofNat 32 (e.val / 1024) :=
  floorDiv_word e.isLt

/-- The end of pair edge e is e mod 1024. -/
theorem dstPair_apply (e : Fin 1048576) : RefSpec.dstPair (ix1 e) = BitVec.ofNat 32 (e.val % 1024) :=
  floorMod_word e.isLt _ (modDiv_apply _)

/-- A vector laid as the one row of a [1, N] array reads itself. -/
theorem row_apply (v : IVec S1048576 32) (e : Fin 1048576) :
    broadcastInDim S1x1048576 ![1] Facts₀.bcast_S1048576_S1x1048576_1 v (ix2 (0 : Fin 1) e) = v (ix1 e) := by
  refine broadcastInDim_apply _ _ v _ (ix1 e) (fun a => ?_)
  match a with
  | ⟨0, _⟩ =>
    show e.val = if (1048576 : Nat) = 1 then 0 else e.val
    rw [if_neg (by omega)]

/-- Row 0 of the stack is the sources. -/
theorem pairs_row0 (e : Fin 1048576) : RefSpec.pairs (ix2 (0 : Fin 2) e) = BitVec.ofNat 32 (e.val / 1024) := by
  unfold RefSpec.pairs
  refine (concatenate_pair_apply_left (s₁ := S1x1048576) (s₂ := S1x1048576) (0 : Fin S2x1048576.rank) _ _ _ (ix2 (0 : Fin 2) e) rfl (ix2 (0 : Fin 1) e)
    (fun b => ?_)).trans ((row_apply _ e).trans (srcPair_apply e))
  match b with
  | ⟨0, _⟩ => rfl
  | ⟨1, _⟩ => rfl

/-- Row 1 of the stack is the ends. -/
theorem pairs_row1 (e : Fin 1048576) : RefSpec.pairs (ix2 (1 : Fin 2) e) = BitVec.ofNat 32 (e.val % 1024) := by
  unfold RefSpec.pairs
  refine (concatenate_pair_apply_right (s₁ := S1x1048576) (s₂ := S1x1048576) (0 : Fin S2x1048576.rank) _ _ _ (ix2 (1 : Fin 2) e) rfl rfl (ix2 (0 : Fin 1) e)
    (fun b hb => ?_) rfl).trans ((row_apply _ e).trans (dstPair_apply e))
  match b with
  | ⟨0, _⟩ => exact absurd rfl hb
  | ⟨1, _⟩ => rfl

end Nodes
/-! ## Every edge's two nodes, and the table -/

section All
variable [Cert.ReferenceIdeal.Facts]

/-- A pair edge's source in the full list. -/
theorem srcAll_pair (e : Fin 1049600) (h : e.val < 1048576) :
    RefSpec.srcAll (ix1 e) = BitVec.ofNat 32 (e.val / 1024) := by
  unfold RefSpec.srcAll
  refine (concatenate_pair_apply_left (s₁ := S1048576) (s₂ := S1024) (0 : Fin S1049600.rank) _ _ _ (ix1 e) rfl
    (ix1 (⟨e.val, h⟩ : Fin 1048576)) (fun b => ?_)).trans ?_
  · match b with
    | ⟨0, _⟩ => rfl
  · refine (shapeCast_1a_a_apply _ _ _).trans ?_
    refine (slice2_axis0_apply 0 _ _ (0 : Fin 1) _ (0 : Fin 2) rfl).trans ?_
    exact pairs_row0 _

/-- A pair edge's end in the full list. -/
theorem dstAll_pair (e : Fin 1049600) (h : e.val < 1048576) :
    RefSpec.dstAll (ix1 e) = BitVec.ofNat 32 (e.val % 1024) := by
  unfold RefSpec.dstAll
  refine (concatenate_pair_apply_left (s₁ := S1048576) (s₂ := S1024) (0 : Fin S1049600.rank) _ _ _ (ix1 e) rfl
    (ix1 (⟨e.val, h⟩ : Fin 1048576)) (fun b => ?_)).trans ?_
  · match b with
    | ⟨0, _⟩ => rfl
  · refine (shapeCast_1a_a_apply _ _ _).trans ?_
    refine (slice2_axis0_apply 1 _ _ (0 : Fin 1) _ (1 : Fin 2) rfl).trans ?_
    exact pairs_row1 _

/-- A self loop's source in the full list: its node. -/
theorem srcAll_loop (e : Fin 1049600) (h : ¬ e.val < 1048576) :
    RefSpec.srcAll (ix1 e) = BitVec.ofNat 32 (e.val - 1048576) := by
  have he := e.isLt
  unfold RefSpec.srcAll
  refine (concatenate_pair_apply_right (s₁ := S1048576) (s₂ := S1024) (0 : Fin S1049600.rank) _ _ _ (ix1 e) rfl rfl
    (ix1 (⟨e.val - 1048576, by omega⟩ : Fin 1024)) (fun b hb => ?_) ?_).trans ?_
  · match b with
    | ⟨0, _⟩ => exact absurd rfl hb
  · show (e.val - 1048576) + 1048576 = e.val
    omega
  · rfl

/-- A self loop's end in the full list: its node. -/
theorem dstAll_loop (e : Fin 1049600) (h : ¬ e.val < 1048576) :
    RefSpec.dstAll (ix1 e) = BitVec.ofNat 32 (e.val - 1048576) := by
  have he := e.isLt
  unfold RefSpec.dstAll
  refine (concatenate_pair_apply_right (s₁ := S1048576) (s₂ := S1024) (0 : Fin S1049600.rank) _ _ _ (ix1 e) rfl rfl
    (ix1 (⟨e.val - 1048576, by omega⟩ : Fin 1024)) (fun b hb => ?_) ?_).trans ?_
  · match b with
    | ⟨0, _⟩ => exact absurd rfl hb
  · show (e.val - 1048576) + 1048576 = e.val
    omega
  · rfl

/-- The table of a list of node numbers below 2^20 reads the list. -/
theorem table_apply (v : IVec S1049600 32) (e : Fin 1049600) (n : Nat) (hn : n < 1048576)
    (hv : v (ix1 e) = BitVec.ofNat 32 n) : RefSpec.table v (ix2 e (0 : Fin 1)) = BitVec.ofNat 32 n := by
  unfold RefSpec.table
  refine (broadcastInDim_apply _ _ _ _ (ix1 e) (fun a => ?_)).trans ?_
  · match a with
    | ⟨0, _⟩ =>
      show e.val = if (1049600 : Nat) = 1 then 0 else e.val
      rw [if_neg (by omega)]
  · show Scalar.select (IntOp.cmpi .slt (v (ix1 e)) 0#32) (IntOp.addi (v (ix1 e)) 1024#32) (v (ix1 e)) = _
    rw [hv]
    exact wrap_word hn

theorem table_srcAll (e : Fin 1049600) :
    RefSpec.table RefSpec.srcAll (ix2 e (0 : Fin 1)) = BitVec.ofNat 32 (Edge.src e).val := by
  by_cases h : e.val < 1048576
  · have hs : (Edge.src e).val = e.val / 1024 := by unfold Edge.src; rw [dif_pos h]
    rw [hs]
    exact table_apply _ e _ (by omega) (srcAll_pair e h)
  · have hs : (Edge.src e).val = e.val - 1048576 := by unfold Edge.src; rw [dif_neg h]
    rw [hs]
    exact table_apply _ e _ (by omega) (srcAll_loop e h)

theorem table_dstAll (e : Fin 1049600) :
    RefSpec.table RefSpec.dstAll (ix2 e (0 : Fin 1)) = BitVec.ofNat 32 (Edge.dst e).val := by
  by_cases h : e.val < 1048576
  · have hs : (Edge.dst e).val = e.val % 1024 := by unfold Edge.dst; rw [dif_pos h]
    rw [hs]
    exact table_apply _ e _ (by omega) (dstAll_pair e h)
  · have hs : (Edge.dst e).val = e.val - 1048576 := by unfold Edge.dst; rw [dif_neg h]
    rw [hs]
    exact table_apply _ e _ (by omega) (dstAll_loop e h)

end All
/-! ## Every edge's weight -/

section Weight
variable [Cert.ReferenceIdeal.Facts]

/-- The adjacency matrix's entry (r, c) is the argument's. -/
theorem adjM_apply (adj : FVec Ideal S1x1x1024x1024 .f32) (r c : Fin 1024) :
    RefSpec.adjM (F := Ideal) adj (ix2 r c) = adj (ix4 (0 : Fin 1) (0 : Fin 1) r c) := by
  unfold RefSpec.adjM
  exact (shapeCast_1ab_ab_apply _ _ r c).trans (shapeCast_1abc_abc_apply _ _ (0 : Fin 1) r c)

/-- The flattened adjacency at position r · 1024 + c is the entry (r, c). -/
theorem adjFlat_apply (adj : FVec Ideal S1x1x1024x1024 .f32) (r c : Fin 1024) (hlt : r.val * 1024 + c.val < 1048576) :
    shapeCast S1048576 (RefSpec.adjM (F := Ideal) adj) Facts₀.shapeCasts_S1024x1024_S1048576
      (ix1 (⟨r.val * 1024 + c.val, hlt⟩ : Fin 1048576)) = adj (ix4 (0 : Fin 1) (0 : Fin 1) r c) := by
  refine (shapeCast_apply _ _ _ (ix2 r c) ?_).trans (adjM_apply adj r c)
  rw [Shape.rowMajor_val_two, Shape.rowMajor_val_one]
  rfl

theorem weight_pair (adj : FVec Ideal S1x1x1024x1024 .f32) (r c : Fin 1024) :
    RefSpec.weight (F := Ideal) adj (ix1 (Edge.pairEdge r c)) = Edge.wt adj r c := by
  have hr := r.isLt
  have hc := c.isLt
  have hlt : r.val * 1024 + c.val < 1048576 := by omega
  unfold RefSpec.weight
  refine (concatenate_pair_apply_left (s₁ := S1048576) (s₂ := S1024) (0 : Fin S1049600.rank) _ _ _
    (ix1 (Edge.pairEdge r c)) rfl (ix1 (⟨r.val * 1024 + c.val, hlt⟩ : Fin 1048576)) (fun b => ?_)).trans ?_
  · match b with
    | ⟨0, _⟩ => rfl
  · show (((Ideal.cmp .une (shapeCast S1048576 (RefSpec.adjM (F := Ideal) adj) Facts₀.shapeCasts_S1024x1024_S1048576
        (ix1 (⟨r.val * 1024 + c.val, hlt⟩ : Fin 1048576))) (Ideal.ofBits .f32 0x00000000#32)).toNat : ℝ) : EReal) = _
    rw [adjFlat_apply adj r c hlt, Ideal.ofBits_zero_f32]
    unfold Edge.wt Ideal.cmp
    by_cases h0 : adj (ix4 (0 : Fin 1) (0 : Fin 1) r c) = (0 : EReal)
    · rw [if_pos h0, h0]; simp
    · rw [if_neg h0]; simp [h0]

theorem weight_loop (adj : FVec Ideal S1x1x1024x1024 .f32) (k : Fin 1024) :
    RefSpec.weight (F := Ideal) adj (ix1 (Edge.loopEdge k)) = (1 : EReal) := by
  unfold RefSpec.weight
  refine (concatenate_pair_apply_right (s₁ := S1048576) (s₂ := S1024) (0 : Fin S1049600.rank) _ _ _
    (ix1 (Edge.loopEdge k)) rfl rfl (ix1 k) (fun b hb => ?_) ?_).trans ?_
  · match b with
    | ⟨0, _⟩ => exact absurd rfl hb
  · show k.val + 1048576 = 1048576 + k.val
    omega
  · exact Ideal.ofBits_one_f32

end Weight

end Cert.ReferenceIdeal.EdgeNodes

end
-- ==== Proof.EdgeOps.lean ====
/-
  A gather and an accumulating scatter through a one-column table of node numbers, read at an index, and the
  sum over the edges that end at a node.

  The table's row e holds the node number k(e) < 1024 as a 32-bit word; read signed it is k(e) itself, inside
  the operand, so the gather's clamp does nothing and the scatter drops nothing. Gathering v through the table
  reads v at k(e); the accumulating scatter of u onto x0 reads at node j the value x0 j plus the sum of u e over
  the rows e with k(e) = j. The edges ending at node j are the pair edges (r, j), r < 1024, and the self loop at j.
-/
import proofs.«154545_g88562225643607_cont_sun_c4_858_6_alg».proof.ReferenceIdeal
import proofs.«154545_g88562225643607_cont_sun_c4_858_6_alg».proof.Proof.EdgeDefs
import Idealize.ShloMosaic.PureOps.Ideal
import Idealize.ShloMosaic.Lib.ValueIdx

noncomputable section

open scoped BigOperators

namespace Cert.ReferenceIdeal.EdgeOps

open Cert.ReferenceIdeal Idealize.ShloMosaic Idealize.ShloMosaic.ValueIdx
open Facts₀ Facts

variable [Cert.ReferenceIdeal.Facts]

/-- A node number below 1024, written as a 32-bit word and read back signed, is itself. -/
theorem toInt_ofNat_node (k : Nat) (hk : k < 1024) : (BitVec.ofNat 32 k).toInt = (k : Int) := by
  rw [BitVec.toInt_eq_toNat_cond, BitVec.toNat_ofNat]
  have h : k % 2 ^ 32 = k := Nat.mod_eq_of_lt (by omega)
  rw [h, if_pos (by omega)]

/-- The gather of a vector through the table reads the vector at the row's node. -/
theorem gather1_apply {α : Type} (v : S1024.Idx → α) (t : IVec S1049600x1 32) (e : Fin 1049600) (k : Fin 1024)
    (ht : t (ix2 e (0 : Fin 1)) = BitVec.ofNat 32 k.val) :
    Host.gather gather_S1024_S1049600x1_S1049600_n_0_n_n_0_1_1 v t (ix1 e) = v (ix1 k) := by
  unfold Host.gather
  congr 1
  funext a
  obtain rfl : a = 0 := Subsingleton.elim _ _
  refine Fin.ext ?_
  show gather_S1024_S1049600x1_S1049600_n_0_n_n_0_1_1.start (ix1 e) t 0
    + gather_S1024_S1049600x1_S1049600_n_0_n_n_0_1_1.batchCoord (ix1 e) 0
    + gather_S1024_S1049600x1_S1049600_n_0_n_n_0_1_1.offCoord (ix1 e) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S1024_S1049600x1_S1049600_n_0_n_n_0_1_1.startIndexMap from List.mem_singleton.mpr rfl)]
  have hsi : gather_S1024_S1049600x1_S1049600_n_0_n_n_0_1_1.siIdx (ix1 e)
      ⟨List.idxOf (0 : Fin 1) gather_S1024_S1049600x1_S1049600_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, ht, toInt_ofNat_node k.val k.isLt]
  show min ((k.val : Int)).toNat (1024 - 1) = k.val
  have := k.isLt
  omega

/-- The gather of a matrix's rows through the table reads the matrix at the row's node, column kept. -/
theorem gather2_apply {α : Type} (M : S1024x128.Idx → α) (t : IVec S1049600x1 32) (e : Fin 1049600) (f : Fin 128)
    (k : Fin 1024) (ht : t (ix2 e (0 : Fin 1)) = BitVec.ofNat 32 k.val) :
    Host.gather gather_S1024x128_S1049600x1_S1049600x128_1_0_n_n_0_1_1128 M t (ix2 e f) = M (ix2 k f) := by
  have h0 : gather_S1024x128_S1049600x1_S1049600x128_1_0_n_n_0_1_1128.start (ix2 e f) t (0 : Fin 2)
      + gather_S1024x128_S1049600x1_S1049600x128_1_0_n_n_0_1_1128.batchCoord (ix2 e f) (0 : Fin 2)
      + gather_S1024x128_S1049600x1_S1049600x128_1_0_n_n_0_1_1128.offCoord (ix2 e f) (0 : Fin 2) = k.val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x128_S1049600x1_S1049600x128_1_0_n_n_0_1_1128.startIndexMap
      from List.mem_singleton.mpr rfl)]
    have hsi : gather_S1024x128_S1049600x1_S1049600x128_1_0_n_n_0_1_1128.siIdx (ix2 e f)
        ⟨List.idxOf (0 : Fin 2) gather_S1024x128_S1049600x1_S1049600x128_1_0_n_n_0_1_1128.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, ht, toInt_ofNat_node k.val k.isLt]
    show min ((k.val : Int)).toNat (1024 - 1) = k.val
    have := k.isLt
    omega
  have h1 : gather_S1024x128_S1049600x1_S1049600x128_1_0_n_n_0_1_1128.start (ix2 e f) t (1 : Fin 2)
      + gather_S1024x128_S1049600x1_S1049600x128_1_0_n_n_0_1_1128.batchCoord (ix2 e f) (1 : Fin 2)
      + gather_S1024x128_S1049600x1_S1049600x128_1_0_n_n_0_1_1128.offCoord (ix2 e f) (1 : Fin 2) = f.val := by
    have hs : gather_S1024x128_S1049600x1_S1049600x128_1_0_n_n_0_1_1128.start (ix2 e f) t (1 : Fin 2) = 0 := by
      unfold GatherDims.start
      rw [dif_neg (show ¬ (1 : Fin 2) ∈ gather_S1024x128_S1049600x1_S1049600x128_1_0_n_n_0_1_1128.startIndexMap from by
        intro h; exact absurd (List.mem_singleton.mp h) (by decide))]
    have ho : gather_S1024x128_S1049600x1_S1049600x128_1_0_n_n_0_1_1128.offCoord (ix2 e f) (1 : Fin 2) = f.val := by
      unfold GatherDims.offCoord
      rw [dif_pos ((GatherDims.mem_sKept _ _).mpr ⟨by intro h; exact absurd (List.mem_singleton.mp h) (by decide), List.not_mem_nil⟩)]
      rfl
    rw [GatherDims.batchCoord_eq_zero _ _ _ List.not_mem_nil, hs, ho]
    omega
  unfold Host.gather
  congr 1
  funext a
  refine Fin.ext ?_
  match a with
  | ⟨0, _⟩ => exact h0
  | ⟨1, _⟩ => exact h1

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- Update row e of the vector scatter lands at the row's node: the start is the node number, unclamped and inside
    the operand, and there is no window coordinate. -/
theorem scatter1_resultIdx (t : IVec S1049600x1 32) (d : Fin 1049600 → Fin 1024)
    (ht : ∀ e, t (ix2 e (0 : Fin 1)) = BitVec.ofNat 32 (d e).val) (e : Fin 1049600) :
    scatter_S1024_S1049600x1_S1049600_n_0_0_1.resultIdx? (ix1 e) t = some (ix1 (d e)) := by
  have hst : scatter_S1024_S1049600x1_S1049600_n_0_0_1.start (ix1 e) t (0 : Fin 1) = ((d e).val : Int) := by
    unfold ScatterDims.start
    rw [dif_pos (show (0 : Fin 1) ∈ scatter_S1024_S1049600x1_S1049600_n_0_0_1.scatterDimsToOperandDims
      from List.mem_singleton.mpr rfl)]
    have hsi : scatter_S1024_S1049600x1_S1049600_n_0_0_1.siIdx (ix1 e)
        ⟨List.idxOf (0 : Fin 1) scatter_S1024_S1049600x1_S1049600_n_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, ht, toInt_ofNat_node (d e).val (d e).isLt]
  have hw : scatter_S1024_S1049600x1_S1049600_n_0_0_1.window (ix1 e) (0 : Fin 1) = 0 := by
    unfold ScatterDims.window
    rw [dif_neg (show ¬ (0 : Fin 1) ∈ scatter_S1024_S1049600x1_S1049600_n_0_0_1.sKept from by
      intro h
      have h' := (List.mem_filter.mp h).2
      have h'' : (0 : Fin 1) ∉ scatter_S1024_S1049600x1_S1049600_n_0_0_1.insertedWindowDims := by simpa using h'
      exact h'' (List.mem_singleton.mpr rfl))]
  have hlt := (d e).isLt
  unfold ScatterDims.resultIdx?
  rw [dif_pos (by
    intro a
    obtain rfl : a = 0 := Subsingleton.elim _ _
    rw [hst, hw]
    show (0 : Int) ≤ ((d e).val : Int) + ((0 : Nat) : Int) ∧ ((d e).val : Int) + ((0 : Nat) : Int) < ((1024 : Nat) : Int)
    omega)]
  refine congrArg some ?_
  funext a
  obtain rfl : a = 0 := Subsingleton.elim _ _
  refine Fin.ext ?_
  show (scatter_S1024_S1049600x1_S1049600_n_0_0_1.start (ix1 e) t (0 : Fin 1)
    + (scatter_S1024_S1049600x1_S1049600_n_0_0_1.window (ix1 e) (0 : Fin 1) : Int)).toNat = (d e).val
  rw [hst, hw]
  omega

/-- The accumulating scatter of a vector of updates through the table reads, at node j, the operand there plus
    the sum of the updates of the rows whose node is j. -/
theorem scatter1_apply (x0 : FVec Ideal S1024 .f32) (t : IVec S1049600x1 32) (u : FVec Ideal S1049600 .f32)
    (d : Fin 1049600 → Fin 1024) (ht : ∀ e, t (ix2 e (0 : Fin 1)) = BitVec.ofNat 32 (d e).val) (j : Fin 1024) :
    Host.scatterAdd (F := Ideal) scatter_S1024_S1049600x1_S1049600_n_0_0_1 x0 t u (ix1 j)
      = x0 (ix1 j) + ∑ e ∈ Finset.univ.filter (fun e : Fin 1049600 => d e = j), u (ix1 e) := by
  unfold Host.scatterAdd
  rw [Ideal.hostScatterAdd_def]
  unfold Ideal.hostScatterAdd
  refine congrArg (fun z => x0 (ix1 j) + z) ?_
  refine (Finset.sum_equiv (idxEquiv1 (n := 1049600)).symm ?_ ?_).symm
  · intro e
    rw [Finset.mem_filter, Finset.mem_filter]
    refine and_congr (by simp only [Finset.mem_univ]) ?_
    show d e = j ↔ scatter_S1024_S1049600x1_S1049600_n_0_0_1.resultIdx? (ix1 e) t = some (ix1 j)
    rw [scatter1_resultIdx t d ht e]
    constructor
    · intro h; rw [h]
    · intro h; exact congrFun (Option.some.inj h) (0 : Fin 1)
  · intro e _
    rfl

/-- Update (e, f) of the matrix scatter lands at (the row's node, f): on the node axis the start is the node number,
    unclamped and inside the operand, with no window coordinate; on the column axis the start is 0 and the window
    coordinate is f. -/
theorem scatter2_resultIdx (t : IVec S1049600x1 32) (d : Fin 1049600 → Fin 1024)
    (ht : ∀ e, t (ix2 e (0 : Fin 1)) = BitVec.ofNat 32 (d e).val) (e : Fin 1049600) (f : Fin 128) :
    scatter_S1024x128_S1049600x1_S1049600x128_1_0_0_1.resultIdx? (ix2 e f) t = some (ix2 (d e) f) := by
  have hst0 : scatter_S1024x128_S1049600x1_S1049600x128_1_0_0_1.start (ix2 e f) t (0 : Fin 2) = ((d e).val : Int) := by
    unfold ScatterDims.start
    rw [dif_pos (show (0 : Fin 2) ∈ scatter_S1024x128_S1049600x1_S1049600x128_1_0_0_1.scatterDimsToOperandDims
      from List.mem_singleton.mpr rfl)]
    have hsi : scatter_S1024x128_S1049600x1_S1049600x128_1_0_0_1.siIdx (ix2 e f)
        ⟨List.idxOf (0 : Fin 2) scatter_S1024x128_S1049600x1_S1049600x128_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi, ht, toInt_ofNat_node (d e).val (d e).isLt]
  have hst1 : scatter_S1024x128_S1049600x1_S1049600x128_1_0_0_1.start (ix2 e f) t (1 : Fin 2) = 0 := by
    unfold ScatterDims.start
    rw [dif_neg (show ¬ (1 : Fin 2) ∈ scatter_S1024x128_S1049600x1_S1049600x128_1_0_0_1.scatterDimsToOperandDims from by
      intro h; exact absurd (List.mem_singleton.mp h) (by decide))]
  have hw0 : scatter_S1024x128_S1049600x1_S1049600x128_1_0_0_1.window (ix2 e f) (0 : Fin 2) = 0 := by
    unfold ScatterDims.window
    rw [dif_neg (show ¬ (0 : Fin 2) ∈ scatter_S1024x128_S1049600x1_S1049600x128_1_0_0_1.sKept from by
      intro h
      have h' := (List.mem_filter.mp h).2
      have h'' : (0 : Fin 2) ∉ scatter_S1024x128_S1049600x1_S1049600x128_1_0_0_1.insertedWindowDims := by simpa using h'
      exact h'' (List.mem_singleton.mpr rfl))]
  have hw1 : scatter_S1024x128_S1049600x1_S1049600x128_1_0_0_1.window (ix2 e f) (1 : Fin 2) = f.val := by
    unfold ScatterDims.window
    rw [dif_pos (show (1 : Fin 2) ∈ scatter_S1024x128_S1049600x1_S1049600x128_1_0_0_1.sKept from by
      refine List.mem_filter.mpr ⟨List.mem_finRange _, ?_⟩
      have h'' : (1 : Fin 2) ∉ scatter_S1024x128_S1049600x1_S1049600x128_1_0_0_1.insertedWindowDims := by
        intro h; exact absurd (List.mem_singleton.mp h) (by decide)
      simpa using h'')]
    rfl
  have hlt := (d e).isLt
  have hf := f.isLt
  have hc0 : (0 : Int) ≤ scatter_S1024x128_S1049600x1_S1049600x128_1_0_0_1.start (ix2 e f) t (0 : Fin 2)
        + (scatter_S1024x128_S1049600x1_S1049600x128_1_0_0_1.window (ix2 e f) (0 : Fin 2) : Int)
      ∧ scatter_S1024x128_S1049600x1_S1049600x128_1_0_0_1.start (ix2 e f) t (0 : Fin 2)
        + (scatter_S1024x128_S1049600x1_S1049600x128_1_0_0_1.window (ix2 e f) (0 : Fin 2) : Int) < ((1024 : Nat) : Int) := by
    rw [hst0, hw0]; omega
  have hc1 : (0 : Int) ≤ scatter_S1024x128_S1049600x1_S1049600x128_1_0_0_1.start (ix2 e f) t (1 : Fin 2)
        + (scatter_S1024x128_S1049600x1_S1049600x128_1_0_0_1.window (ix2 e f) (1 : Fin 2) : Int)
      ∧ scatter_S1024x128_S1049600x1_S1049600x128_1_0_0_1.start (ix2 e f) t (1 : Fin 2)
        + (scatter_S1024x128_S1049600x1_S1049600x128_1_0_0_1.window (ix2 e f) (1 : Fin 2) : Int) < ((128 : Nat) : Int) := by
    rw [hst1, hw1]; omega
  have hv0 : (scatter_S1024x128_S1049600x1_S1049600x128_1_0_0_1.start (ix2 e f) t (0 : Fin 2)
        + (scatter_S1024x128_S1049600x1_S1049600x128_1_0_0_1.window (ix2 e f) (0 : Fin 2) : Int)).toNat = (d e).val := by
    rw [hst0, hw0]; omega
  have hv1 : (scatter_S1024x128_S1049600x1_S1049600x128_1_0_0_1.start (ix2 e f) t (1 : Fin 2)
        + (scatter_S1024x128_S1049600x1_S1049600x128_1_0_0_1.window (ix2 e f) (1 : Fin 2) : Int)).toNat = f.val := by
    rw [hst1, hw1]; omega
  unfold ScatterDims.resultIdx?
  rw [dif_pos (by
    intro a
    match a with
    | ⟨0, _⟩ => exact hc0
    | ⟨1, _⟩ => exact hc1)]
  refine congrArg some ?_
  funext a
  refine Fin.ext ?_
  match a with
  | ⟨0, _⟩ => exact hv0
  | ⟨1, _⟩ => exact hv1

/-- The accumulating scatter of a matrix of updates through the table reads, at (node j, column f), the operand
    there plus the sum over the rows whose node is j of the updates' column f. -/
theorem scatter2_apply (x0 : FVec Ideal S1024x128 .f32) (t : IVec S1049600x1 32) (u : FVec Ideal S1049600x128 .f32)
    (d : Fin 1049600 → Fin 1024) (ht : ∀ e, t (ix2 e (0 : Fin 1)) = BitVec.ofNat 32 (d e).val) (j : Fin 1024)
    (f : Fin 128) :
    Host.scatterAdd (F := Ideal) scatter_S1024x128_S1049600x1_S1049600x128_1_0_0_1 x0 t u (ix2 j f)
      = x0 (ix2 j f) + ∑ e ∈ Finset.univ.filter (fun e : Fin 1049600 => d e = j), u (ix2 e f) := by
  unfold Host.scatterAdd
  rw [Ideal.hostScatterAdd_def]
  unfold Ideal.hostScatterAdd
  refine congrArg (fun z => x0 (ix2 j f) + z) ?_
  refine (Finset.sum_bij (fun (e : Fin 1049600) _ => (ix2 e f : S1049600x128.Idx)) ?_ ?_ ?_ ?_).symm
  · intro e he
    rw [Finset.mem_filter] at he
    rw [Finset.mem_filter]
    refine ⟨Finset.mem_univ _, ?_⟩
    rw [scatter2_resultIdx t d ht e f, he.2]
  · intro e _ e' _ h
    exact congrFun h (0 : Fin 2)
  · intro b hb
    obtain ⟨e', f', rfl⟩ : ∃ (e' : Fin 1049600) (f' : Fin 128), b = ix2 e' f' := ⟨b 0, b 1, eq_ix2 b⟩
    rw [Finset.mem_filter, scatter2_resultIdx t d ht e' f'] at hb
    have hb' := Option.some.inj hb.2
    have hd : d e' = j := congrFun hb' (0 : Fin 2)
    have hf : f' = f := congrFun hb' (1 : Fin 2)
    refine ⟨e', ?_, ?_⟩
    · rw [Finset.mem_filter]; exact ⟨Finset.mem_univ _, hd⟩
    · rw [hf]
  · intro e _
    rfl

/-- The edges that end at node j are the pair edges (r, j), r < 1024, and the self loop at j: a sum over them
    splits accordingly. -/
theorem sum_dst {M : Type} [AddCommMonoid M] (g : Fin 1049600 → M) (j : Fin 1024) :
    ∑ e ∈ Finset.univ.filter (fun e : Fin 1049600 => Edge.dst e = j), g e
      = (∑ r : Fin 1024, g (Edge.pairEdge r j)) + g (Edge.loopEdge j) := by
  have hinj : Function.Injective (fun r : Fin 1024 => Edge.pairEdge r j) := by
    intro r r' h
    have h' := congrArg Edge.src h
    simp only [Edge.src_pairEdge] at h'
    exact h'
  have hset : Finset.univ.filter (fun e : Fin 1049600 => Edge.dst e = j)
      = insert (Edge.loopEdge j) (Finset.univ.image (fun r : Fin 1024 => Edge.pairEdge r j)) := by
    ext e
    rw [Finset.mem_filter, Finset.mem_insert, Finset.mem_image]
    have he := e.isLt
    have hjlt := j.isLt
    constructor
    · rintro ⟨_, h⟩
      by_cases hlt : e.val < 1048576
      · right
        have hj : e.val % 1024 = j.val := by
          have h' := congrArg Fin.val h
          unfold Edge.dst at h'
          rw [dif_pos hlt] at h'
          exact h'
        refine ⟨⟨e.val / 1024, by omega⟩, Finset.mem_univ _, ?_⟩
        refine Fin.ext ?_
        show e.val / 1024 * 1024 + j.val = e.val
        omega
      · left
        have hj : e.val - 1048576 = j.val := by
          have h' := congrArg Fin.val h
          unfold Edge.dst at h'
          rw [dif_neg hlt] at h'
          exact h'
        refine Fin.ext ?_
        show e.val = 1048576 + j.val
        omega
    · rintro (h | ⟨r, _, h⟩)
      · rw [h]; exact ⟨Finset.mem_univ _, Edge.dst_loopEdge j⟩
      · rw [← h]; exact ⟨Finset.mem_univ _, Edge.dst_pairEdge r j⟩
  have hnot : Edge.loopEdge j ∉ Finset.univ.image (fun r : Fin 1024 => Edge.pairEdge r j) := by
    intro h
    obtain ⟨r, _, hr⟩ := Finset.mem_image.mp h
    have h1 : r.val * 1024 + j.val = 1048576 + j.val := congrArg Fin.val hr
    have := r.isLt
    omega
  rw [hset, Finset.sum_insert hnot, Finset.sum_image (fun a _ b _ h => hinj h), add_comm]

end Cert.ReferenceIdeal.EdgeOps

end
-- ==== Proof.RefAt.lean ====
/-
  The reference's result read at an index.

  Every edge carries the coefficient (dinv at its source) · (dinv at its end) · (its weight) times its source's row
  of the projected hidden layer, and the rows are summed at the edges' ends. The edges ending at node j are the
  pair edges (r, j), r < 1024, and the self loop at j, so the result at (j, f) is zero plus the sum over r of the
  pair edges' terms plus the self loop's term, plus the bias at f. A node's degree is likewise zero plus the
  weights of the pair edges ending there plus the self loop's 1.
-/
import proofs.«154545_g88562225643607_cont_sun_c4_858_6_alg».proof.Proof.RefSpec
import proofs.«154545_g88562225643607_cont_sun_c4_858_6_alg».proof.Proof.EdgeDefs
import proofs.«154545_g88562225643607_cont_sun_c4_858_6_alg».proof.Proof.EdgeNodes
import proofs.«154545_g88562225643607_cont_sun_c4_858_6_alg».proof.Proof.EdgeOps
import Idealize.ShloMosaic.Lib.Pipeline.Value
import Idealize.ShloMosaic.Lib.ValueIdx

noncomputable section

open scoped BigOperators

namespace Cert.ReferenceIdeal.RefAt

open Cert.ReferenceIdeal Idealize.ShloMosaic Idealize.ShloMosaic.ValueIdx
open Facts₀ Facts

variable [Cert.ReferenceIdeal.Facts]

/-! ## The splats and the bias at an index -/

/-- The zero vector over the nodes reads 0. -/
theorem zeroNodes_apply (c : Fin 1024) :
    broadcastInDim S1024 ![] bcast_S_S1024 (constant (F := Ideal) S_ .f32 0x00000000#32) (ix1 c) = (0 : EReal) :=
  Ideal.ofBits_zero_f32

/-- The zero matrix reads 0. -/
theorem zeroMat_apply (j : Fin 1024) (f : Fin 128) :
    broadcastInDim S1024x128 ![] bcast_S_S1024x128 (constant (F := Ideal) S_ .f32 0x00000000#32) (ix2 j f) = (0 : EReal) :=
  Ideal.ofBits_zero_f32

/-- The bias spread over the rows reads, at (j, f), the bias at f. -/
theorem biasRows_apply (bg : FVec Ideal S128 .f32) (j : Fin 1024) (f : Fin 128) :
    broadcastInDim S1024x128 ![0, 1] bcast_S1x128_S1024x128_0_1 (broadcastInDim S1x128 ![1] bcast_S128_S1x128_1 bg) (ix2 j f)
      = bg (ix1 f) := by
  refine (broadcastInDim_apply _ _ _ _ (ix2 (0 : Fin 1) f) (fun a => ?_)).trans ?_
  · match a with
    | ⟨0, _⟩ =>
      show (0 : Nat) = if (1 : Nat) = 1 then 0 else j.val
      rw [if_pos rfl]
    | ⟨1, _⟩ =>
      show f.val = if (128 : Nat) = 1 then 0 else f.val
      rw [if_neg (by omega)]
  · refine broadcastInDim_apply _ _ _ _ (ix1 f) (fun a => ?_)
    match a with
    | ⟨0, _⟩ =>
      show f.val = if (128 : Nat) = 1 then 0 else f.val
      rw [if_neg (by omega)]

/-! ## The degree and the normalisation -/

/-- a node's degree: zero plus (the weights of the pair edges ending there, summed, plus the self loop's 1) -/
theorem deg_apply (adj : FVec Ideal S1x1x1024x1024 .f32) (c : Fin 1024) :
    RefSpec.deg (F := Ideal) adj (ix1 c) = (0 : EReal) + ((∑ r : Fin 1024, Edge.wt adj r c) + 1) := by
  unfold RefSpec.deg
  refine (EdgeOps.scatter1_apply _ _ _ Edge.dst EdgeNodes.table_dstAll c).trans
    (congrArg₂ (· + ·) (zeroNodes_apply c) ?_)
  refine (EdgeOps.sum_dst (fun e => RefSpec.weight (F := Ideal) adj (ix1 e)) c).trans ?_
  exact congrArg₂ (· + ·) (Finset.sum_congr rfl fun r _ => EdgeNodes.weight_pair adj r c) (EdgeNodes.weight_loop adj c)

/-- A select between equal operands under equal conditions. -/
theorem select_congr {α : Type} {c c' : BitVec 1} {a a' b b' : α} (hc : c = c') (ha : a = a') (hb : b = b') :
    Scalar.select c a b = Scalar.select c' a' b' := by
  subst hc ha hb; rfl

/-- The normalisation of any degree vector, as the program spells it, read at a node. -/
theorem dinv_spell (d : FVec Ideal S1024 .f32) (c : Fin 1024) :
    select (cmpf .ogt d (broadcastInDim S1024 ![] bcast_S_S1024 (constant (F := Ideal) S_ .f32 0x00000000#32)))
        (Host.powf d (broadcastInDim S1024 ![] bcast_S_S1024 (constant (F := Ideal) S_ .f32 0xBF000000#32)))
        (broadcastInDim S1024 ![] bcast_S_S1024 (id (constant (F := Ideal) S_ .f32 0x00000000#32))) (ix1 c)
      = Scalar.select (Ideal.cmp .ogt (d (ix1 c)) (0 : EReal))
          (Ideal.pow (d (ix1 c)) (Ideal.ofBits .f32 0xBF000000#32)) (0 : EReal) := by
  refine (select_apply _ _ _ (ix1 c)).trans (select_congr ?_ ?_ (zeroNodes_apply c))
  · refine (cmpf_apply _ _ _ (ix1 c)).trans ((Ideal.cmpf_def _ _ _).trans ?_)
    exact congrArg (Ideal.cmp .ogt (d (ix1 c))) (zeroNodes_apply c)
  · exact Ideal.hostPowf_def _ _

/-- the normalisation at a node, as the program spells it -/
theorem dinv_apply (adj : FVec Ideal S1x1x1024x1024 .f32) (c : Fin 1024) :
    RefSpec.dinv (F := Ideal) adj (ix1 c)
      = Scalar.select (Ideal.cmp .ogt (RefSpec.deg (F := Ideal) adj (ix1 c)) (0 : EReal))
          (Ideal.pow (RefSpec.deg (F := Ideal) adj (ix1 c)) (Ideal.ofBits .f32 0xBF000000#32)) (0 : EReal) :=
  dinv_spell (RefSpec.deg (F := Ideal) adj) c

/-! ## An edge's coefficient and message -/

/-- an edge's coefficient -/
theorem coef_apply (adj : FVec Ideal S1x1x1024x1024 .f32) (e : Fin 1049600) :
    RefSpec.coef (F := Ideal) adj (ix1 e)
      = (RefSpec.dinv (F := Ideal) adj (ix1 (Edge.src e)) * RefSpec.dinv (F := Ideal) adj (ix1 (Edge.dst e)))
          * RefSpec.weight (F := Ideal) adj (ix1 e) := by
  have hs := EdgeOps.gather1_apply (RefSpec.dinv (F := Ideal) adj) (RefSpec.table RefSpec.srcAll) e (Edge.src e)
    (EdgeNodes.table_srcAll e)
  have hd := EdgeOps.gather1_apply (RefSpec.dinv (F := Ideal) adj) (RefSpec.table RefSpec.dstAll) e (Edge.dst e)
    (EdgeNodes.table_dstAll e)
  unfold RefSpec.coef
  refine (mulf_apply _ _ (ix1 e)).trans ?_
  refine congrArg (· * RefSpec.weight (F := Ideal) adj (ix1 e)) ?_
  refine (mulf_apply _ _ (ix1 e)).trans ?_
  rw [hs, hd]

/-- A vector over the edges spread along the columns reads, at (e, f), the vector at e. -/
theorem edgeRows_apply (v : FVec Ideal S1049600 .f32) (e : Fin 1049600) (f : Fin 128) :
    broadcastInDim S1049600x128 ![0, 1] bcast_S1049600x1_S1049600x128_0_1
        (broadcastInDim S1049600x1 ![0] bcast_S1049600_S1049600x1_0 v) (ix2 e f) = v (ix1 e) := by
  refine (broadcastInDim_apply _ _ _ _ (ix2 e (0 : Fin 1)) (fun a => ?_)).trans ?_
  · match a with
    | ⟨0, _⟩ =>
      show e.val = if (1049600 : Nat) = 1 then 0 else e.val
      rw [if_neg (by omega)]
    | ⟨1, _⟩ =>
      show (0 : Nat) = if (1 : Nat) = 1 then 0 else f.val
      rw [if_pos rfl]
  · refine broadcastInDim_apply _ _ _ _ (ix1 e) (fun a => ?_)
    match a with
    | ⟨0, _⟩ =>
      show e.val = if (1049600 : Nat) = 1 then 0 else e.val
      rw [if_neg (by omega)]

/-- An edge's message at column f: its coefficient times its source's row of the projection at f. -/
theorem message_apply (x : FVec Ideal S1024x128 .f32) (adj : FVec Ideal S1x1x1024x1024 .f32) (W1 : FVec Ideal S128x128 .f32)
    (b1 : FVec Ideal S128 .f32) (Wg : FVec Ideal S128x128 .f32) (e : Fin 1049600) (f : Fin 128) :
    RefSpec.message (F := Ideal) x adj W1 b1 Wg (ix2 e f)
      = RefSpec.coef (F := Ideal) adj (ix1 e) * RefSpec.proj (F := Ideal) x W1 b1 Wg (ix2 (Edge.src e) f) := by
  have hg := EdgeOps.gather2_apply (RefSpec.proj (F := Ideal) x W1 b1 Wg) (RefSpec.table RefSpec.srcAll) e f (Edge.src e)
    (EdgeNodes.table_srcAll e)
  have hc := edgeRows_apply (RefSpec.coef (F := Ideal) adj) e f
  unfold RefSpec.message
  refine (mulf_apply _ _ (ix2 e f)).trans ?_
  rw [hg, hc]

/-- The pair edge (r, j)'s message at column f. -/
theorem message_pair (x : FVec Ideal S1024x128 .f32) (adj : FVec Ideal S1x1x1024x1024 .f32) (W1 : FVec Ideal S128x128 .f32)
    (b1 : FVec Ideal S128 .f32) (Wg : FVec Ideal S128x128 .f32) (r j : Fin 1024) (f : Fin 128) :
    RefSpec.message (F := Ideal) x adj W1 b1 Wg (ix2 (Edge.pairEdge r j) f)
      = ((RefSpec.dinv (F := Ideal) adj (ix1 r) * RefSpec.dinv (F := Ideal) adj (ix1 j)) * Edge.wt adj r j)
          * RefSpec.proj (F := Ideal) x W1 b1 Wg (ix2 r f) := by
  rw [message_apply, coef_apply, Edge.src_pairEdge, Edge.dst_pairEdge, EdgeNodes.weight_pair]

/-- The self loop at j's message at column f. -/
theorem message_loop (x : FVec Ideal S1024x128 .f32) (adj : FVec Ideal S1x1x1024x1024 .f32) (W1 : FVec Ideal S128x128 .f32)
    (b1 : FVec Ideal S128 .f32) (Wg : FVec Ideal S128x128 .f32) (j : Fin 1024) (f : Fin 128) :
    RefSpec.message (F := Ideal) x adj W1 b1 Wg (ix2 (Edge.loopEdge j) f)
      = ((RefSpec.dinv (F := Ideal) adj (ix1 j) * RefSpec.dinv (F := Ideal) adj (ix1 j)) * 1)
          * RefSpec.proj (F := Ideal) x W1 b1 Wg (ix2 j f) := by
  rw [message_apply, coef_apply, Edge.src_loopEdge, Edge.dst_loopEdge, EdgeNodes.weight_loop]

/-! ## The result -/

/-- THE RESULT at (j, f): zero plus (the pair edges (r, j) summed, plus the self loop at j), plus the bias -/
theorem out_apply (x : FVec Ideal S1024x128 .f32) (adj : FVec Ideal S1x1x1024x1024 .f32) (W1 : FVec Ideal S128x128 .f32)
    (b1 : FVec Ideal S128 .f32) (Wg : FVec Ideal S128x128 .f32) (bg : FVec Ideal S128 .f32) (j : Fin 1024) (f : Fin 128) :
    RefSpec.out (F := Ideal) x adj W1 b1 Wg bg (ix2 j f)
      = ((0 : EReal)
          + ((∑ r : Fin 1024, ((RefSpec.dinv (F := Ideal) adj (ix1 r) * RefSpec.dinv (F := Ideal) adj (ix1 j)) * Edge.wt adj r j)
                  * RefSpec.proj (F := Ideal) x W1 b1 Wg (ix2 r f))
             + ((RefSpec.dinv (F := Ideal) adj (ix1 j) * RefSpec.dinv (F := Ideal) adj (ix1 j)) * 1)
                  * RefSpec.proj (F := Ideal) x W1 b1 Wg (ix2 j f)))
        + bg (ix1 f) := by
  have hsc := EdgeOps.scatter2_apply
    (broadcastInDim S1024x128 ![] bcast_S_S1024x128 (constant (F := Ideal) S_ .f32 0x00000000#32))
    (RefSpec.table RefSpec.dstAll) (RefSpec.message (F := Ideal) x adj W1 b1 Wg) Edge.dst EdgeNodes.table_dstAll j f
  have hsum := EdgeOps.sum_dst (fun e => RefSpec.message (F := Ideal) x adj W1 b1 Wg (ix2 e f)) j
  have hpairs : (∑ r : Fin 1024, RefSpec.message (F := Ideal) x adj W1 b1 Wg (ix2 (Edge.pairEdge r j) f))
      = ∑ r : Fin 1024, ((RefSpec.dinv (F := Ideal) adj (ix1 r) * RefSpec.dinv (F := Ideal) adj (ix1 j)) * Edge.wt adj r j)
          * RefSpec.proj (F := Ideal) x W1 b1 Wg (ix2 r f) :=
    Finset.sum_congr rfl fun r _ => message_pair x adj W1 b1 Wg r j f
  unfold RefSpec.out
  refine (addf_apply _ _ (ix2 j f)).trans ?_
  rw [hsc, hsum, hpairs, message_loop x adj W1 b1 Wg j f, zeroMat_apply j f, biasRows_apply bg j f]

end Cert.ReferenceIdeal.RefAt

end
-- ==== Proof.RefDense.lean ====
/-
  The dense stages of the reference read at an index: the hidden layer max(x · W1ᵀ + b1, 0) and its product with
  Wgᵀ as sums over the contracted coordinate, the bias row spread over the nodes, the zero splats, and the power
  with exponent −1/2 as the reciprocal square root on positive reals.
-/
import proofs.«154545_g88562225643607_cont_sun_c4_858_6_alg».proof.Proof.RefSpec
import proofs.«154545_g88562225643607_cont_sun_c4_858_6_alg».proof.Proof.LibDotSum
import Idealize.ShloMosaic.PureOps.Ideal.Laws
import Idealize.ShloMosaic.Lib.Pipeline.Value
import Idealize.ShloMosaic.Lib.ValueIdx

noncomputable section

open scoped BigOperators

namespace Cert.ReferenceIdeal.RefDense

open Cert.ReferenceIdeal Idealize.ShloMosaic Idealize.ShloMosaic.ValueIdx
open Facts₀ Facts

variable [Cert.ReferenceIdeal.Facts]

/-- The word 0xBF000000 is the single-precision pattern of −1/2: sign set, exponent 126, significand 0. -/
theorem ofBits_neg_half : Ideal.ofBits .f32 0xBF000000#32 = (((-(1 / 2) : ℝ)) : EReal) := by
  simp [Ideal.ofBits, Ideal.ieee]
  norm_cast
  norm_num

/-- The literal −0.5 and, for a positive real degree, the reference's power is the reciprocal square root:
    d^(−1/2) = (d^(1/2))⁻¹ = (√d)⁻¹. -/
theorem pow_neg_half (d : ℝ) (hd : 0 < d) :
    Ideal.pow (d : EReal) (Ideal.ofBits .f32 0xBF000000#32) = Ideal.rsqrt (d : EReal) := by
  rw [ofBits_neg_half, Ideal.pow_coe_coe, Ideal.rsqrt_coe, if_neg (not_lt.mpr hd.le), if_neg hd.ne']
  refine congrArg (fun z : ℝ => (z : EReal)) ?_
  show d ^ (-(1 / 2) : ℝ) = (Real.sqrt d)⁻¹
  rw [Real.rpow_neg hd.le, Real.sqrt_eq_rpow]

/-- A zero splat over the matrix shape reads 0 everywhere. -/
theorem zeros2_apply (i : S1024x128.Idx) :
    broadcastInDim S1024x128 ![] bcast_S_S1024x128 (constant (F := Ideal) S_ .f32 0x00000000#32) i = (0 : EReal) := by
  refine (broadcastInDim_apply (![] : Fin 0 → Fin S1024x128.rank) bcast_S_S1024x128
    (constant (F := Ideal) S_ .f32 0x00000000#32) i ix0 (fun a => a.elim0)).trans ?_
  exact Ideal.ofBits_zero_f32

/-- A zero splat over the vector shape reads 0 everywhere. -/
theorem zeros1_apply (i : S1024.Idx) :
    broadcastInDim S1024 ![] bcast_S_S1024 (constant (F := Ideal) S_ .f32 0x00000000#32) i = (0 : EReal) := by
  refine (broadcastInDim_apply (![] : Fin 0 → Fin S1024.rank) bcast_S_S1024
    (constant (F := Ideal) S_ .f32 0x00000000#32) i ix0 (fun a => a.elim0)).trans ?_
  exact Ideal.ofBits_zero_f32

/-- The bias row spread over the nodes reads, at (j, f), the bias at f. -/
theorem bias_apply (bg : FVec Ideal S128 .f32) (j : Fin 1024) (f : Fin 128) :
    broadcastInDim S1024x128 ![0, 1] bcast_S1x128_S1024x128_0_1 (broadcastInDim S1x128 ![1] bcast_S128_S1x128_1 bg) (ix2 j f)
      = bg (ix1 f) := by
  refine (broadcastInDim_apply (![0, 1] : Fin 2 → Fin S1024x128.rank) bcast_S1x128_S1024x128_0_1
    (broadcastInDim S1x128 ![1] bcast_S128_S1x128_1 bg) (ix2 j f) (ix2 (0 : Fin 1) f) ?_).trans ?_
  · intro a
    match a with
    | ⟨0, _⟩ => rfl
    | ⟨1, _⟩ => rfl
  · refine broadcastInDim_apply (![1] : Fin 1 → Fin S1x128.rank) bcast_S128_S1x128_1 bg (ix2 (0 : Fin 1) f) (ix1 f) ?_
    intro a
    match a with
    | ⟨0, _⟩ => rfl

/-- The transposed weight at (l, k) is the weight at (k, l). -/
theorem transpose_at (W : FVec Ideal S128x128 .f32) (l k : Fin 128) :
    transpose S128x128 [1, 0] W transposes_S128x128_S128x128_1_0 (ix2 l k) = W (ix2 k l) := by
  refine transpose_apply [1, 0] W transposes_S128x128_S128x128_1_0 (ix2 l k) (ix2 k l) ?_
  intro b
  match b with
  | ⟨0, _⟩ => rfl
  | ⟨1, _⟩ => rfl

/-- The product of a 1024 × 128 matrix with a 128 × 128 one, contracted over the left's columns and the right's rows,
    at (i, f): the sum over the contracted coordinate. -/
theorem dot_apply (l : FVec Ideal S1024x128 .f32) (r : FVec Ideal S128x128 .f32) (i : Fin 1024) (f : Fin 128) :
    Host.dotGeneral dot_S1024x128_S128x128_S1024x128_1_0_0_1_n_n none l r (ix2 i f)
      = ∑ k : Fin 128, l (ix2 i k) * r (ix2 k f) := by
  refine (Ideal.dotGeneral_apply dot_S1024x128_S128x128_S1024x128_1_0_0_1_n_n none .single l r (ix2 i f)).trans ?_
  refine LibDotSum.sum_single dot_S1024x128_S128x128_S1024x128_1_0_0_1_n_n 128 rfl rfl l r (ix2 i f)
    (fun k => l (ix2 i k)) (fun k => r (ix2 k f)) ?_ ?_
  · intro k
    refine congrArg l ?_
    funext a
    match a with
    | ⟨0, _⟩ => rfl
    | ⟨1, _⟩ => exact Fin.ext (LibDotSum.lhs_contr_val dot_S1024x128_S128x128_S1024x128_1_0_0_1_n_n 128 rfl rfl rfl _ k)
  · intro k
    refine congrArg r ?_
    funext a
    match a with
    | ⟨0, _⟩ => exact Fin.ext (LibDotSum.rhs_contr_val dot_S1024x128_S128x128_S1024x128_1_0_0_1_n_n 128 rfl rfl rfl _ k)
    | ⟨1, _⟩ => rfl

/-- The hidden layer at (i, k): the row of x against the row k of W1, plus the bias, floored at 0. -/
theorem hidden_apply (x : FVec Ideal S1024x128 .f32) (W1 : FVec Ideal S128x128 .f32) (b1 : FVec Ideal S128 .f32)
    (i : Fin 1024) (k : Fin 128) :
    RefSpec.hidden (F := Ideal) x W1 b1 (ix2 i k)
      = max ((∑ l : Fin 128, x (ix2 i l) * W1 (ix2 k l)) + b1 (ix1 k)) (0 : EReal) := by
  unfold RefSpec.hidden
  rw [maximumf_apply, addf_apply, dot_apply, bias_apply, zeros2_apply]
  refine congrArg (fun z => max (z + b1 (ix1 k)) (0 : EReal)) ?_
  exact Finset.sum_congr rfl fun l _ => by rw [transpose_at]

/-- The hidden layer times Wgᵀ at (i, f): the row i of the hidden layer against the row f of Wg. -/
theorem proj_apply (x : FVec Ideal S1024x128 .f32) (W1 : FVec Ideal S128x128 .f32) (b1 : FVec Ideal S128 .f32)
    (Wg : FVec Ideal S128x128 .f32) (i : Fin 1024) (f : Fin 128) :
    RefSpec.proj (F := Ideal) x W1 b1 Wg (ix2 i f)
      = ∑ k : Fin 128, RefSpec.hidden (F := Ideal) x W1 b1 (ix2 i k) * Wg (ix2 f k) := by
  unfold RefSpec.proj
  rw [dot_apply]
  exact Finset.sum_congr rfl fun k _ => by rw [transpose_at]

end Cert.ReferenceIdeal.RefDense

end
-- ==== Proof.BridgeR.lean ====
/-
  The reference's result at (j, f) when x, W1, b1, Wg hold reals: the common value plus the bias.

  A node's degree is a real number at least 1, so the reference's deg^(-1/2) (taken where deg > 0) is the
  same real 1/√deg as the kernel's reciprocal square root; the hidden layer and its projection are the same
  real sums; and the sum of the edge messages ending at j is the edge-list form of the common value.
-/
import proofs.«154545_g88562225643607_cont_sun_c4_858_6_alg».proof.Proof.RefAt
import proofs.«154545_g88562225643607_cont_sun_c4_858_6_alg».proof.Proof.RefDense
import proofs.«154545_g88562225643607_cont_sun_c4_858_6_alg».proof.Proof.RealVals

noncomputable section

open scoped BigOperators

namespace Cert.ReferenceIdeal.RBridge

open Cert.ReferenceIdeal Idealize.ShloMosaic Idealize.ShloMosaic.ValueIdx GcnReal
open Facts₀ Facts

variable [Cert.ReferenceIdeal.Facts]

/-- The reference's normalisation at node c is the real 1/√deg. -/
theorem dinv_real (adj : FVec Ideal S1x1x1024x1024 .f32) (c : Fin 1024) :
    RefSpec.dinv (F := Ideal) adj (ix1 c) = ((dR adj c : ℝ) : EReal) := by
  have hpos : (0 : EReal) < ((degR adj c : ℝ) : EReal) := by exact_mod_cast degR_pos adj c
  rw [RefAt.dinv_apply, RefAt.deg_apply, degsum_coe]
  have hc : Ideal.cmp .ogt ((degR adj c : ℝ) : EReal) (0 : EReal) = 1#1 := by
    simp [Ideal.cmp, hpos]
  rw [hc, RefDense.pow_neg_half (degR adj c) (degR_pos adj c), rsqrt_deg]
  rfl

variable (x : FVec Ideal S1024x128 .f32) (W1 : FVec Ideal S128x128 .f32) (b1 : FVec Ideal S128 .f32) (Wg : FVec Ideal S128x128 .f32)
  (xr : S1024x128.Idx → ℝ) (w1r : S128x128.Idx → ℝ) (b1r : S128.Idx → ℝ) (wgr : S128x128.Idx → ℝ)
  (hx : ∀ i, x i = ((xr i : ℝ) : EReal)) (hW1 : ∀ i, W1 i = ((w1r i : ℝ) : EReal)) (hb1 : ∀ i, b1 i = ((b1r i : ℝ) : EReal))
  (hWg : ∀ i, Wg i = ((wgr i : ℝ) : EReal))

include hx hW1 hb1 hWg in
/-- The reference's projection at (i, f) is the same real. -/
theorem proj_real (i : Fin 1024) (f : Fin 128) :
    RefSpec.proj (F := Ideal) x W1 b1 Wg (ix2 i f) = ((qR xr w1r b1r wgr i f : ℝ) : EReal) := by
  rw [RefDense.proj_apply]
  simp only [RefDense.hidden_apply, hx, hW1, hb1, hWg, hid_coe]
  exact proj_coe xr w1r b1r wgr i f

include hx hW1 hb1 hWg in
/-- The reference's result at (j, f): the common value plus the bias. -/
theorem out_at (adj : FVec Ideal S1x1x1024x1024 .f32) (bg : FVec Ideal S128 .f32) (j : Fin 1024) (f : Fin 128) :
    RefSpec.out (F := Ideal) x adj W1 b1 Wg bg (ix2 j f)
      = ((GcnLaw.val (wtR adj) (dR adj) (fun r => qR xr w1r b1r wgr r f) j : ℝ) : EReal) + bg (ix1 f) := by
  rw [RefAt.out_apply]
  simp only [dinv_real, proj_real x W1 b1 Wg xr w1r b1r wgr hx hW1 hb1 hWg, wt_coe]
  exact GcnLaw.edge_form (wtR adj) (dR adj) (fun r => qR xr w1r b1r wgr r f) j (bg (ix1 f))

end Cert.ReferenceIdeal.RBridge

end
-- ==== Proof.FiniteIn.lean ====
/-
  From the precondition to real entries.

  The precondition is the conjunction, over the six float arrays, of "every entry's absolute value is below +∞".
  Over the extended reals the absolute value of v is max v (−v) and the pattern 0x7F800000 is ⊤, so the
  comparison holds exactly when v is neither ⊤ nor ⊥, that is, when v is a real number. A conjunction of one-bit
  words that is 1 has every conjunct 1, and an and-reduction over all axes that is 1 has a 1 at every index.
-/
import proofs.«154545_g88562225643607_cont_sun_c4_858_6_alg».proof.Pre_finite_inputs
import proofs.«154545_g88562225643607_cont_sun_c4_858_6_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.FiniteIn

open Cert.Pre_finite_inputs Idealize.ShloMosaic Idealize.ShloMosaic.ValueIdx

variable [Cert.Pre_finite_inputs.Facts]

/-- The scalar shape has one index. -/
instance : Subsingleton S_.Idx := ⟨fun a b => funext fun d => d.elim0⟩

/-- The pattern 0x7F800000 is +∞. -/
theorem ofBits_inf : Ideal.ofBits .f32 0x7F800000#32 = (⊤ : EReal) := by simp [Ideal.ofBits, Ideal.ieee]

/-- An extended real whose absolute value is below +∞ is a real. -/
theorem real_of_abs_lt (v : EReal)
    (h : Ideal.cmp .olt (max v (-v)) (Ideal.ofBits .f32 0x7F800000#32) = 1#1) : ∃ r : ℝ, v = (r : EReal) := by
  rw [ofBits_inf] at h
  have hlt : max v (-v) < (⊤ : EReal) := by
    by_contra hn
    have : Ideal.cmp .olt (max v (-v)) (⊤ : EReal) = 0#1 := by
      show BitVec.ofBool (decide (max v (-v) < (⊤ : EReal))) = 0#1
      rw [decide_eq_false hn]; rfl
    rw [this] at h
    exact absurd h (by decide)
  induction v using EReal.rec with
  | bot => exact absurd hlt (by simp)
  | coe r => exact ⟨r, rfl⟩
  | top => exact absurd hlt (by simp)

/-- An array all of whose entries have absolute value below +∞ has real entries. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) (i : s.Idx) : ∃ r : ℝ, a i = (r : EReal) :=
  real_of_abs_lt (a i) (Host.reduce_andi_all _ _ hr hu ix0 e i)

theorem real_of_pre (x : FVec Ideal S1024x128 .f32) (adj : FVec Ideal S1x1x1024x1024 .f32) (W1 : FVec Ideal S128x128 .f32)
    (b1 : FVec Ideal S128 .f32) (Wg : FVec Ideal S128x128 .f32) (bg : FVec Ideal S128 .f32)
    (h : Cert.Pre_finite_inputs.fn (F := Ideal) x adj W1 b1 Wg bg = (fun _ => 1#1)) :
    (∀ i, ∃ r : ℝ, x i = (r : EReal)) ∧ (∀ i, ∃ r : ℝ, W1 i = (r : EReal)) ∧ (∀ i, ∃ r : ℝ, b1 i = (r : EReal))
      ∧ (∀ i, ∃ r : ℝ, Wg i = (r : EReal)) := by
  have h0 := congrFun h ix0
  dsimp only [fn, fn_part1, andi] at h0
  obtain ⟨h5, _⟩ := IntOp.andi_eq_one.1 h0
  obtain ⟨h4, hWg⟩ := IntOp.andi_eq_one.1 h5
  obtain ⟨h3, hb1⟩ := IntOp.andi_eq_one.1 h4
  obtain ⟨h2, hW1⟩ := IntOp.andi_eq_one.1 h3
  obtain ⟨hx, _⟩ := IntOp.andi_eq_one.1 h2
  exact ⟨real_of_all x _ _ _ hx, real_of_all W1 _ _ _ hW1, real_of_all b1 _ _ _ hb1, real_of_all Wg _ _ _ hWg⟩

end Cert.Pre_finite_inputs.FiniteIn

end
-- ==== Proof.ResultEq.lean ====
/-
  Under the precondition the two programs' results are one function of the arguments.

  The precondition makes x, W1, b1 and Wg real-valued (the adjacency and the last bias may be anything:
  the adjacency is only tested against zero, and the bias is added last on both sides). Then, index by index,
  both results are the same real value plus the bias.
-/
import proofs.«154545_g88562225643607_cont_sun_c4_858_6_alg».proof.Proof.BridgeK
import proofs.«154545_g88562225643607_cont_sun_c4_858_6_alg».proof.Proof.BridgeR
import proofs.«154545_g88562225643607_cont_sun_c4_858_6_alg».proof.Proof.FiniteIn

noncomputable section

namespace Cert.ResultEq

open Idealize.ShloMosaic Idealize.ShloMosaic.ValueIdx

variable [Cert.KernelIdeal.Facts] [Cert.ReferenceIdeal.Facts] [Cert.Pre_finite_inputs.Facts]

/-- The kernel's result term and the reference's are equal when the precondition holds of the arguments. -/
theorem result_eq (x : FVec Ideal Cert.KernelIdeal.S1024x128 .f32) (adj : FVec Ideal Cert.KernelIdeal.S1x1x1024x1024 .f32)
    (W1 : FVec Ideal Cert.KernelIdeal.S128x128 .f32) (b1 : FVec Ideal Cert.KernelIdeal.S128 .f32)
    (Wg : FVec Ideal Cert.KernelIdeal.S128x128 .f32) (bg : FVec Ideal Cert.KernelIdeal.S128 .f32)
    (h : Cert.Pre_finite_inputs.fn (F := Ideal) x adj W1 b1 Wg bg = (fun _ => 1#1)) :
    Cert.KernelIdeal.KValue.kres (F := Ideal) x adj W1 b1 Wg bg
      = Cert.ReferenceIdeal.RefSpec.out (F := Ideal) x adj W1 b1 Wg bg := by
  obtain ⟨hx, hW1, hb1, hWg⟩ := Cert.Pre_finite_inputs.FiniteIn.real_of_pre x adj W1 b1 Wg bg h
  choose xr hxr using hx
  choose w1r hw1r using hW1
  choose b1r hb1r using hb1
  choose wgr hwgr using hWg
  funext i
  obtain ⟨j, f, rfl⟩ : ∃ (j : Fin 1024) (f : Fin 128), i = ix2 j f := ⟨i 0, i 1, eq_ix2 i⟩
  rw [Cert.KernelIdeal.KBridge.kres_at x W1 b1 Wg xr w1r b1r wgr hxr hw1r hb1r hwgr adj bg j f,
    Cert.ReferenceIdeal.RBridge.out_at x W1 b1 Wg xr w1r b1r wgr hxr hw1r hb1r hwgr adj bg j f]

end Cert.ResultEq

end
-- ==== Proof.lean ====
/-
  The certificate: a dense graph-convolution kernel against its edge-list reference.

  The reference lists all 1024 · 1024 node pairs as edges (weight 1 where the adjacency entry is nonzero) plus
  1024 self loops, computes degrees by a scatter-add over the edges' ends, normalises by deg^(-1/2), gathers the
  projected hidden features at the edges' sources, and scatter-adds the weighted messages at their ends. The
  kernel does the same as dense algebra: W = (adjacency ≠ 0), deg = column sums of W plus one, dinv = rsqrt deg,
  out = dinv · (Wᵀ · (dinv · xw) + dinv · xw) + bias. Over the extended reals, with finite inputs, every
  quantity is real and the two are equal by distributivity; the sum over the edges ending at a node is the sum
  over the pairs (r, j) plus the self loop.

  The three frames: the kernel's two are the generated frame proofs; the reference's is its run with the
  result dropped. The idealization's one rewrite (a bf16 round trip of f32 values read as the identity) is
  the rule's own statement.
-/
import proofs.«154545_g88562225643607_cont_sun_c4_858_6_alg».proof.Defs
import proofs.«154545_g88562225643607_cont_sun_c4_858_6_alg».proof.Proof.Gen.Kernel
import proofs.«154545_g88562225643607_cont_sun_c4_858_6_alg».proof.Proof.Gen.Kernel.Frame
import proofs.«154545_g88562225643607_cont_sun_c4_858_6_alg».proof.Proof.Gen.KernelIdeal
import proofs.«154545_g88562225643607_cont_sun_c4_858_6_alg».proof.Proof.Gen.KernelIdeal.Frame
import proofs.«154545_g88562225643607_cont_sun_c4_858_6_alg».proof.Proof.Gen.KernelIdeal.Value
import proofs.«154545_g88562225643607_cont_sun_c4_858_6_alg».proof.Proof.Gen.ReferenceIdeal
import proofs.«154545_g88562225643607_cont_sun_c4_858_6_alg».proof.Proof.Gen.Pre_finite_inputs
import proofs.«154545_g88562225643607_cont_sun_c4_858_6_alg».proof.Proof.KernelArr
import proofs.«154545_g88562225643607_cont_sun_c4_858_6_alg».proof.Proof.RefRun
import proofs.«154545_g88562225643607_cont_sun_c4_858_6_alg».proof.Proof.ResultEq
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The one rewrite of the idealization: rounding an f32 value to bf16 and widening it back is the identity
    on the extended reals. -/
theorem preserves : Cert.preserves_Kernel_KernelIdeal :=
  IdealRules.truncf_extf.statement _ .f32 .bf16

/-- From memories agreeing on the arguments, both programs end with the same result array. -/
theorem algebraic : Cert.algebraic_KernelIdeal_ReferenceIdeal := by
  intro m ρ m' ρ' hpre hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]
  exact (Cert.ResultEq.result_eq _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
